-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1020 : Shape := ⟨2, ![16384, 1020]⟩
abbrev S16384x255 : Shape := ⟨2, ![16384, 255]⟩
abbrev S16384x16 : Shape := ⟨2, ![16384, 16]⟩
abbrev S16 : Shape := ⟨1, ![16]⟩
abbrev S1020 : Shape := ⟨1, ![1020]⟩
abbrev S_ : Shape := ⟨0, ![]⟩

class Facts : Prop where
  bcast_S_S16384x1020 : S_.BroadcastsInDim S16384x1020 (![] : Fin 0 → Fin S16384x1020.rank)
  reducesTo_S16384x1020_S_d0_1 : S16384x1020.ReducesTo [0, 1] S_
  h_S_ : 0 < S_.numel
  bcast_S_S16384x255 : S_.BroadcastsInDim S16384x255 (![] : Fin 0 → Fin S16384x255.rank)
  reducesTo_S16384x255_S_d0_1 : S16384x255.ReducesTo [0, 1] S_
  bcast_S_S16384x16 : S_.BroadcastsInDim S16384x16 (![] : Fin 0 → Fin S16384x16.rank)
  reducesTo_S16384x16_S_d0_1 : S16384x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S16384x1020 .f32) (main_arg1 : FVec F S16384x255 .f32) (main_arg2 : FVec F S16384x16 .f32) (main_arg3 : FVec F S16 .f32) (main_arg4 : IVec S1020 32) : IVec S_ 1 :=
  let main_v0 : FVec F S16384x1020 .f32 := Host.absf main_arg0
  let main_cst : FVec F S_ .f32 := constant S_ .f32 0x7F800000#32
  let main_v1 : FVec F S16384x1020 .f32 := broadcastInDim S16384x1020 ![] bcast_S_S16384x1020 main_cst
  let main_v2 : IVec S16384x1020 1 := cmpf .olt main_v0 main_v1
  let main_c : IVec S_ 1 := constantI S_ 1 1#1
  let main_v3 : IVec S_ 1 := (fun x v => Host.reduce IntOp.andi x v reducesTo_S16384x1020_S_d0_1 h_S_) main_v2 main_c
  let main_v4 : FVec F S16384x255 .f32 := Host.absf main_arg1
  let main_cst_0 : FVec F S_ .f32 := constant S_ .f32 0x7F800000#32
  let main_v5 : FVec F S16384x255 .f32 := broadcastInDim S16384x255 ![] bcast_S_S16384x255 main_cst_0
  let main_v6 : IVec S16384x255 1 := cmpf .olt main_v4 main_v5
  let main_c_1 : IVec S_ 1 := constantI S_ 1 1#1
  let main_v7 : IVec S_ 1 := (fun x v => Host.reduce IntOp.andi x v reducesTo_S16384x255_S_d0_1 h_S_) main_v6 main_c_1
  let main_v8 : IVec S_ 1 := andi main_v3 main_v7
  let main_v9 : FVec F S16384x16 .f32 := Host.absf main_arg2
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  let main_c_3 : IVec S_ 1 := constantI S_ 1 1#1
  let main_v12 : IVec S_ 1 := (fun x v => Host.reduce IntOp.andi x v reducesTo_S16384x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S16384x1020 : Shape := ⟨2, ![16384, 1020]⟩
abbrev S16384x255 : Shape := ⟨2, ![16384, 255]⟩
abbrev S16384x16 : Shape := ⟨2, ![16384, 16]⟩
abbrev S16 : Shape := ⟨1, ![16]⟩
abbrev S1020 : Shape := ⟨1, ![1020]⟩
abbrev S255 : Shape := ⟨1, ![255]⟩
abbrev S255x1 : Shape := ⟨2, ![255, 1]⟩
abbrev S1x1020 : Shape := ⟨2, ![1, 1020]⟩
abbrev S_ : Shape := ⟨0, ![]⟩
abbrev S255x1020 : Shape := ⟨2, ![255, 1020]⟩
abbrev S1020x1 : Shape := ⟨2, ![1020, 1]⟩
abbrev S1x16 : Shape := ⟨2, ![1, 16]⟩
abbrev S1020x16 : Shape := ⟨2, ![1020, 16]⟩
abbrev S16x128 : Shape := ⟨2, ![16, 128]⟩
abbrev S1024x1020 : Shape := ⟨2, ![1024, 1020]⟩
abbrev S1024x255 : Shape := ⟨2, ![1024, 255]⟩
abbrev S1024x16 : Shape := ⟨2, ![1024, 16]⟩
abbrev S8x128 : Shape := ⟨2, ![8, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩

abbrev nBuf : Space → Nat
  | .hbm => 44
  | .vmem => 14
  | .smem => 0
  | _ => 0

abbrev bufTy : (tb : Table) → Fin (tcTables nBuf tb) → BufTy
  | .hbm, ⟨0, _⟩ => ⟨S16384x1020, .f32⟩
  | .hbm, ⟨1, _⟩ => ⟨S16384x255, .f32⟩
  | .hbm, ⟨2, _⟩ => ⟨S16384x16, .f32⟩
  | .hbm, ⟨3, _⟩ => ⟨S16, .f32⟩
  | .hbm, ⟨4, _⟩ => ⟨S1020, .i32⟩
  | .hbm, ⟨5, _⟩ => ⟨S255, .i32⟩
  | .hbm, ⟨6, _⟩ => ⟨S255x1, .i32⟩
  | .hbm, ⟨7, _⟩ => ⟨S1020, .i32⟩
  | .hbm, ⟨8, _⟩ => ⟨S1x1020, .i32⟩
  | .hbm, ⟨9, _⟩ => ⟨S_, .i32⟩
  | .hbm, ⟨10, _⟩ => ⟨S_, .i32⟩
  | .hbm, ⟨11, _⟩ => ⟨S1x1020, .i32⟩
  | .hbm, ⟨12, _⟩ => ⟨S1x1020, .i32⟩
  | .hbm, ⟨13, _⟩ => ⟨S1x1020, .i32⟩
  | .hbm, ⟨14, _⟩ => ⟨S_, .i32⟩
  | .hbm, ⟨15, _⟩ => ⟨S1x1020, .i32⟩
  | .hbm, ⟨16, _⟩ => ⟨S1x1020, .i1⟩
  | .hbm, ⟨17, _⟩ => ⟨S1x1020, .i32⟩
  | .hbm, ⟨18, _⟩ => ⟨S1x1020, .i32⟩
  | .hbm, ⟨19, _⟩ => ⟨S_, .i32⟩
  | .hbm, ⟨20, _⟩ => ⟨S1x1020, .i32⟩
  | .hbm, ⟨21, _⟩ => ⟨S1x1020, .i1⟩
  | .hbm, ⟨22, _⟩ => ⟨S1x1020, .i1⟩
  | .hbm, ⟨23, _⟩ => ⟨S_, .i32⟩
  | .hbm, ⟨24, _⟩ => ⟨S1x1020, .i32⟩
  | .hbm, ⟨25, _⟩ => ⟨S1x1020, .i32⟩
  | .hbm, ⟨26, _⟩ => ⟨S1x1020, .i32⟩
  | .hbm, ⟨27, _⟩ => ⟨S255x1020, .i32⟩
  | .hbm, ⟨28, _⟩ => ⟨S255x1020, .i32⟩
  | .hbm, ⟨29, _⟩ => ⟨S255x1020, .i1⟩
  | .hbm, ⟨30, _⟩ => ⟨S255x1020, .bf16⟩
  | .hbm, ⟨31, _⟩ => ⟨S1020x1, .i32⟩
  | .hbm, ⟨32, _⟩ => ⟨S1x16, .i32⟩
  | .hbm, ⟨33, _⟩ => ⟨S1020x16, .i32⟩
  | .hbm, ⟨34, _⟩ => ⟨S1020x16, .i32⟩
  | .hbm, ⟨35, _⟩ => ⟨S1020x16, .i1⟩
  | .hbm, ⟨36, _⟩ => ⟨S1020x16, .bf16⟩
  | .hbm, ⟨37, _⟩ => ⟨S1x16, .f32⟩
  | .hbm, ⟨38, _⟩ => ⟨S16x128, .f32⟩
  | .hbm, ⟨39, _⟩ => ⟨S1x1, .f32⟩
  | .hbm, ⟨40, _⟩ => ⟨S_, .f32⟩
  | .hbm, ⟨41, _⟩ => ⟨S1x1, .f32⟩
  | .hbm, ⟨42, _⟩ => ⟨S_, .f32⟩
  | .hbm, ⟨43, _⟩ => ⟨S_, .f32⟩
  | .local _ .vmem, ⟨0, _⟩ => ⟨S1024x1020, .f32⟩
  | .local _ .vmem, ⟨1, _⟩ => ⟨S1024x1020, .f32⟩
  | .local _ .vmem, ⟨2, _⟩ => ⟨S1024x255, .f32⟩
  | .local _ .vmem, ⟨3, _⟩ => ⟨S1024x255, .f32⟩
  | .local _ .vmem, ⟨4, _⟩ => ⟨S1024x16, .f32⟩
  | .local _ .vmem, ⟨5, _⟩ => ⟨S1024x16, .f32⟩
  | .local _ .vmem, ⟨6, _⟩ => ⟨S255x1020, .bf16⟩
  | .local _ .vmem, ⟨7, _⟩ => ⟨S1020x16, .bf16⟩
  | .local _ .vmem, ⟨8, _⟩ => ⟨S1x16, .f32⟩
  | .local _ .vmem, ⟨9, _⟩ => ⟨S8x128, .f32⟩
  | .local _ .vmem, ⟨10, _⟩ => ⟨S8x128, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S16384x1020, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v58 : BitVec 1 := Scalar.cmpi .eq arg1 c7_i32
  let v59 : BitVec 32 := Scalar.extui v58
  let c0_i32_35 : BitVec 32 := 0#32
  let v60 : BitVec 1 := Scalar.cmpi .ne v59 c0_i32_35
  v60

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1020 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x255 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S255x1020 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1020x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S255_S255x1_0 : S255.BroadcastsInDim S255x1 (![0] : Fin 1 → Fin S255x1.rank)
  bcast_S1020_S1x1020_1 : S1020.BroadcastsInDim S1x1020 (![1] : Fin 1 → Fin S1x1020.rank)
  bcast_S_S1x1020 : S_.BroadcastsInDim S1x1020 (![] : Fin 0 → Fin S1x1020.rank)
  bcast_S1x1020_S255x1020_0_1 : S1x1020.BroadcastsInDim S255x1020 (![0, 1] : Fin 2 → Fin S255x1020.rank)
  bcast_S255x1_S255x1020_0_1 : S255x1.BroadcastsInDim S255x1020 (![0, 1] : Fin 2 → Fin S255x1020.rank)
  bcast_S1020_S1020x1_0 : S1020.BroadcastsInDim S1020x1 (![0] : Fin 1 → Fin S1020x1.rank)
  bcast_S1020x1_S1020x16_0_1 : S1020x1.BroadcastsInDim S1020x16 (![0, 1] : Fin 2 → Fin S1020x16.rank)
  bcast_S1x16_S1020x16_0_1 : S1x16.BroadcastsInDim S1020x16 (![0, 1] : Fin 2 → Fin S1020x16.rank)
  shapeCasts_S16_S1x16 : S16.ShapeCasts S1x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x255_S1024x255_0_0 : ∀ a, (![0, 0] : Fin 2 → Nat) a + S1024x255.size a ≤ S1024x255.size a
  h_S1024x255 : 0 < S1024x255.numel
  bitsLt_bf16_f32 : FTy.bits .bf16 < FTy.bits .f32
  inb_S1024x1020_S1024x1020_0_0 : ∀ a, (![0, 0] : Fin 2 → Nat) a + S1024x1020.size a ≤ S1024x1020.size a
  h_S1024x1020 : 0 < S1024x1020.numel
  inb_S255x1020_S255x1020_0_0 : ∀ a, (![0, 0] : Fin 2 → Nat) a + S255x1020.size a ≤ S255x1020.size a
  h_S255x1020 : 0 < S255x1020.numel
  shapeCasts_S255x1020_S255x1020 : S255x1020.ShapeCasts S255x1020
  inb_S1020x16_S1020x16_0_0 : ∀ a, (![0, 0] : Fin 2 → Nat) a + S1020x16.size a ≤ S1020x16.size a
  h_S1020x16 : 0 < S1020x16.numel
  shapeCasts_S1020x16_S1020x16 : S1020x16.ShapeCasts S1020x16
  inb_S1024x16_S1024x16_0_0 : ∀ a, (![0, 0] : Fin 2 → Nat) a + S1024x16.size a ≤ S1024x16.size a
  h_S1024x16 : 0 < S1024x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reduces_S1024x16_S1024 : S1024x16.Reduces [1] S1024
  shapeCasts_S1024_S1024x1 : S1024.ShapeCasts S1024x1
  broadcasts_S1024x1_S1024x16 : S1024x1.Broadcasts S1024x16
  reduces_S1024x1_S1 : S1024x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S1024x255_S255x1020_S1024x1020_1_0_0_1_n_n_wf : DotDims.WF S1024x255 S255x1020 S1024x1020 [1] [0] [0] [1] [] []
  dot_S1024x1020_S1020x16_S1024x16_1_0_0_1_n_n_wf : DotDims.WF S1024x1020 S1020x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1020.size a ≤ S16384x1020.size a
  hwx0_0 : ∀ i : grid0.Coords, EltTy.bits .f32 = 32 ∨ (Rect.block (s := S16384x1020) S1024x1020.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x255.size a ≤ S16384x255.size a
  hwx0_1 : ∀ i : grid0.Coords, EltTy.bits .f32 = 32 ∨ (Rect.block (s := S16384x255) S1024x255.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .f32 = 32 ∨ (Rect.block (s := S16384x16) S1024x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S255x1020.size a ≤ S255x1020.size a
  hwx0_3 : ∀ i : grid0.Coords, EltTy.bits .bf16 = 32 ∨ (Rect.block (s := S255x1020) S255x1020.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1020x16.size a ≤ S1020x16.size a
  hwx0_4 : ∀ i : grid0.Coords, EltTy.bits .bf16 = 32 ∨ (Rect.block (s := S1020x16) S1020x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

def dot_S1024x255_S255x1020_S1024x1020_1_0_0_1_n_n : DotDims S1024x255 S255x1020 S1024x1020 where
  lhsContracting := [1]
  rhsContracting := [0]
  lhsNonContracting := [0]
  rhsNonContracting := [1]
  lhsBatch := []
  rhsBatch := []
  wf := dot_S1024x255_S255x1020_S1024x1020_1_0_0_1_n_n_wf
def dot_S1024x1020_S1020x16_S1024x16_1_0_0_1_n_n : DotDims S1024x1020 S1020x16 S1024x16 where
  lhsContracting := [1]
  rhsContracting := [0]
  lhsNonContracting := [0]
  rhsNonContracting := [1]
  lhsBatch := []
  rhsBatch := []
  wf := dot_S1024x1020_S1020x16_S1024x16_1_0_0_1_n_n_wf

abbrev win0_0 : Pipeline.Window sig grid0 :=
  Pipeline.Window.ofSpec (Memref.whole main_arg0) S1024x1020.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x255.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S255x1020.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1020x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x1020 : Shape := ⟨2, ![16384, 1020]⟩
abbrev S16384x255 : Shape := ⟨2, ![16384, 255]⟩
abbrev S16384x16 : Shape := ⟨2, ![16384, 16]⟩
abbrev S16 : Shape := ⟨1, ![16]⟩
abbrev S1020 : Shape := ⟨1, ![1020]⟩
abbrev S16384x255x4 : Shape := ⟨3, ![16384, 255, 4]⟩
abbrev S1020x1 : Shape := ⟨2, ![1020, 1]⟩
abbrev S1x16 : Shape := ⟨2, ![1, 16]⟩
abbrev S1020x16 : Shape := ⟨2, ![1020, 16]⟩
abbrev S_ : Shape := ⟨0, ![]⟩
abbrev S16384 : Shape := ⟨1, ![16384]⟩
abbrev S16384x1 : Shape := ⟨2, ![16384, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x1020, .f32⟩
  | .hbm, ⟨1, _⟩ => ⟨S16384x255, .f32⟩
  | .hbm, ⟨2, _⟩ => ⟨S16384x16, .f32⟩
  | .hbm, ⟨3, _⟩ => ⟨S16, .f32⟩
  | .hbm, ⟨4, _⟩ => ⟨S1020, .i32⟩
  | .hbm, ⟨5, _⟩ => ⟨S16384x255x4, .f32⟩
  | .hbm, ⟨6, _⟩ => ⟨S16384x1020, .f32⟩
  | .hbm, ⟨7, _⟩ => ⟨S16384x1020, .f32⟩
  | .hbm, ⟨8, _⟩ => ⟨S1020x1, .i32⟩
  | .hbm, ⟨9, _⟩ => ⟨S1x16, .i32⟩
  | .hbm, ⟨10, _⟩ => ⟨S1020x16, .i32⟩
  | .hbm, ⟨11, _⟩ => ⟨S1020x16, .i32⟩
  | .hbm, ⟨12, _⟩ => ⟨S1020x16, .i1⟩
  | .hbm, ⟨13, _⟩ => ⟨S1020x16, .f32⟩
  | .hbm, ⟨14, _⟩ => ⟨S16384x16, .f32⟩
  | .hbm, ⟨15, _⟩ => ⟨S1x16, .f32⟩
  | .hbm, ⟨16, _⟩ => ⟨S_, .f32⟩
  | .hbm, ⟨17, _⟩ => ⟨S1x16, .f32⟩
  | .hbm, ⟨18, _⟩ => ⟨S1x16, .f32⟩
  | .hbm, ⟨19, _⟩ => ⟨S16384x16, .f32⟩
  | .hbm, ⟨20, _⟩ => ⟨S16384x16, .f32⟩
  | .hbm, ⟨21, _⟩ => ⟨S_, .i32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16384x16, .f32⟩
  | .hbm, ⟨49, _⟩ => ⟨S_, .f32⟩
  | .hbm, ⟨50, _⟩ => ⟨S16384, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16384, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S16384x1020, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_cst_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_cst_1 : Ref sig .tc := ⟨.hbm, 32, rfl⟩
abbrev main_call1_v8 : Ref sig .tc := ⟨.hbm, 33, rfl⟩
abbrev main_call1_cst_2 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_cst_3 : Ref sig .tc := ⟨.hbm, 38, rfl⟩
abbrev main_call1_v12 : Ref sig .tc := ⟨.hbm, 39, rfl⟩
abbrev main_call1_cst_4 : Ref sig .tc := ⟨.hbm, 40, rfl⟩
abbrev main_call1_call0_v0 : Ref sig .tc := ⟨.hbm, 41, rfl⟩
abbrev main_call1_call0_v1 : Ref sig .tc := ⟨.hbm, 42, rfl⟩
abbrev main_v10 : Ref sig .tc := ⟨.hbm, 43, rfl⟩
abbrev main_cst_0 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_cst_2 : Ref sig .tc := ⟨.hbm, 49, rfl⟩
abbrev main_v14 : Ref sig .tc := ⟨.hbm, 50, rfl⟩
abbrev main_cst_3 : Ref sig .tc := ⟨.hbm, 51, rfl⟩
abbrev main_v15 : Ref sig .tc := ⟨.hbm, 52, rfl⟩
abbrev main_cst_4 : Ref sig .tc := ⟨.hbm, 53, rfl⟩
abbrev main_v16 : Ref sig .tc := ⟨.hbm, 54, rfl⟩
abbrev main_cst_5 : Ref sig .tc := ⟨.hbm, 55, rfl⟩
abbrev main_v17 : Ref sig .tc := ⟨.hbm, 56, rfl⟩
abbrev main_cst_6 : Ref sig .tc := ⟨.hbm, 57, rfl⟩
abbrev main_v18 : Ref sig .tc := ⟨.hbm, 58, rfl⟩
abbrev main_cst_7 : Ref sig .tc := ⟨.hbm, 59, rfl⟩
abbrev main_v19 : Ref sig .tc := ⟨.hbm, 60, rfl⟩
abbrev main_cst_8 : Ref sig .tc := ⟨.hbm, 61, rfl⟩
abbrev main_v20 : Ref sig .tc := ⟨.hbm, 62, rfl⟩
abbrev main_cst_9 : Ref sig .tc := ⟨.hbm, 63, rfl⟩
abbrev main_v21 : Ref sig .tc := ⟨.hbm, 64, rfl⟩
abbrev main_v22 : Ref sig .tc := ⟨.hbm, 65, rfl⟩
abbrev main_cst_10 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]

class Facts₀ : Prop where
  bcast_S16384x255_S16384x255x4_0_1 : S16384x255.BroadcastsInDim S16384x255x4 (![0, 1] : Fin 2 → Fin S16384x255x4.rank)
  shapeCasts_S16384x255x4_S16384x1020 : S16384x255x4.ShapeCasts S16384x1020
  bcast_S1020_S1020x1_0 : S1020.BroadcastsInDim S1020x1 (![0] : Fin 1 → Fin S1020x1.rank)
  bcast_S1020x1_S1020x16_0_1 : S1020x1.BroadcastsInDim S1020x16 (![0, 1] : Fin 2 → Fin S1020x16.rank)
  bcast_S1x16_S1020x16_0_1 : S1x16.BroadcastsInDim S1020x16 (![0, 1] : Fin 2 → Fin S1020x16.rank)
  bcast_S16_S1x16_1 : S16.BroadcastsInDim S1x16 (![1] : Fin 1 → Fin S1x16.rank)
  bcast_S_S1x16 : S_.BroadcastsInDim S1x16 (![] : Fin 0 → Fin S1x16.rank)
  bcast_S1x16_S16384x16_0_1 : S1x16.BroadcastsInDim S16384x16 (![0, 1] : Fin 2 → Fin S16384x16.rank)
  reducesTo_S16384x16_S16384_d1 : S16384x16.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x16_0_1 : S16384x1.BroadcastsInDim S16384x16 (![0, 1] : Fin 2 → Fin S16384x16.rank)
  bcast_S_S16384 : S_.BroadcastsInDim S16384 (![] : Fin 0 → Fin S16384.rank)
  reducesTo_S16384_S_d0 : S16384.ReducesTo [0] S_
  dot_S16384x1020_S1020x16_S16384x16_1_0_0_1_n_n_wf : DotDims.WF S16384x1020 S1020x16 S16384x16 [1] [0] [0] [1] [] []

variable [Facts₀]

def dot_S16384x1020_S1020x16_S16384x16_1_0_0_1_n_n : DotDims S16384x1020 S1020x16 S16384x16 where
  lhsContracting := [1]
  rhsContracting := [0]
  lhsNonContracting := [0]
  rhsNonContracting := [1]
  lhsBatch := []
  rhsBatch := []
  wf := dot_S16384x1020_S1020x16_S16384x16_1_0_0_1_n_n_wf

class Facts : Prop extends Facts₀ where

variable [Facts]
-- ==== Proof.Spec.lean ====
/-
  The loss both programs compute, written once over plain finite sums of extended reals.

  A batch row b has tunnel ratios p(b,t) (1020 tunnels), demands q(b,d) (255 destinations, tunnel t serving
  destination t / 4), and each tunnel leaves on one of 16 links.  The traffic of row b on link l is
  the sum over tunnels on l of p(b,t) * q(b,t/4); its utilisation u(b,l) is that traffic divided by (capacity(l) + eps).
  Per row: the unbiased variance of u(b,.) over the links, the product-sum of u(b,.) with the current utilisations,
  and the largest u(b,.).  The loss is 0.3 * mean_b variance + 0.5 * mean_b product-sum + 0.2 * mean_b maximum.

  The reference takes the three means over all 16384 rows at once.  The kernel runs two cores, each adding up eight
  tiles of 1024 rows, forms the weighted sum of its own three totals divided by 16384, and the two cores' numbers are added.
  The two agree because a nonnegative real factor distributes over a sum of extended reals (no finiteness is needed)
  and a sum over 16384 rows is the sum of its sixteen tiles.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix, and a vector, of extended reals over the library's index types. -/
abbrev Mat (a b : Nat) := (⟨2, ![a, b]⟩ : Shape).Idx → EReal
abbrev Vect (a : Nat) := (⟨1, ![a]⟩ : Shape).Idx → EReal
abbrev Words (a : Nat) := (⟨1, ![a]⟩ : Shape).Idx → BitVec 32

/-- The literals, as the words both programs carry. -/
def eps : EReal := Ideal.ofBits .f32 0x322BCC77#32
def c16 : EReal := Ideal.ofBits .f32 0x41800000#32
def c15 : EReal := Ideal.ofBits .f32 0x41700000#32
def cB : EReal := Ideal.ofBits .f32 0x46800000#32
def w3 : EReal := Ideal.ofBits .f32 0x3E99999A#32
def w5 : EReal := Ideal.ofBits .f32 0x3F000000#32
def w2 : EReal := Ideal.ofBits .f32 0x3E4CCCCD#32
def negInf : EReal := Ideal.ofBits .f32 0xFF800000#32

/-- Tunnel `t` serves destination `t / 4`. -/
def dst (t : Fin 1020) : Fin 255 := ⟨t.val / 4, by have := t.isLt; omega⟩

/-- 1 where tunnel `t` leaves on link `l`, else 0. -/
def hot (tl : Words 1020) (t : Fin 1020) (l : Fin 16) : EReal :=
  if tl (ix1 t) = BitVec.ofNat 32 l.val then 1 else 0

/-- The utilisation of link `l` by batch row `b`. -/
def util (pr : Mat 16384 1020) (dm : Mat 16384 255) (cap : Vect 16) (tl : Words 1020) (b : Fin 16384) (l : Fin 16) : EReal :=
  Ideal.div (∑ t : Fin 1020, (pr (ix2 b t) * dm (ix2 b (dst t))) * hot tl t l) (cap (ix1 l) + eps)

/-- Mean, unbiased variance, product-sum and maximum of one row of sixteen utilisations. -/
def mean (u : Fin 16 → EReal) : EReal := Ideal.div (∑ l : Fin 16, u l) c16
def var (u : Fin 16 → EReal) : EReal := Ideal.div (∑ l : Fin 16, (u l - mean u) * (u l - mean u)) c15
def cong (u v : Fin 16 → EReal) : EReal := ∑ l : Fin 16, u l * v l
def top (u : Fin 16 → EReal) : EReal := (Finset.univ : Finset (Fin 16)).fold max negInf u

section rows
variable (pr : Mat 16384 1020) (dm : Mat 16384 255) (clu : Mat 16384 16) (cap : Vect 16) (tl : Words 1020)

/-- The three per-row numbers. -/
def rowVar (b : Fin 16384) : EReal := var (util pr dm cap tl b)
def rowCong (b : Fin 16384) : EReal := cong (util pr dm cap tl b) (fun l => clu (ix2 b l))
def rowTop (b : Fin 16384) : EReal := top (util pr dm cap tl b)
end rows

/-- The weighted sum of three totals, each divided by the batch size. -/
def combine (sv sc st : EReal) : EReal := (w3 * Ideal.div sv cB + w5 * Ideal.div sc cB) + w2 * Ideal.div st cB

/-- Row `r` of tile `k` (sixteen tiles of 1024 rows). -/
def tileRow (k : ℕ) (r : Fin 1024) : Fin 16384 := ⟨(k % 16) * 1024 + r.val, by have := r.isLt; have := Nat.mod_lt k (by decide : 0 < 16); omega⟩

/-- The sum of `f` over the rows of tile `k`. -/
def tileSum (f : Fin 16384 → EReal) (k : ℕ) : EReal := ∑ r : Fin 1024, f (tileRow k r)

/-- Core `c`'s running total after its first `n` tiles (tiles `8c, 8c+1, …`), added in that order from 0. -/
def acc (f : Fin 16384 → EReal) (c : ℕ) : ℕ → EReal
  | 0 => 0
  | n + 1 => acc f c n + tileSum f (c * 8 + n)

section loss
variable (pr : Mat 16384 1020) (dm : Mat 16384 255) (clu : Mat 16384 16) (cap : Vect 16) (tl : Words 1020)

/-- The reference's loss: the three totals over all rows, combined. -/
def refLoss : EReal :=
  combine (∑ b : Fin 16384, rowVar pr dm cap tl b) (∑ b : Fin 16384, rowCong pr dm clu cap tl b) (∑ b : Fin 16384, rowTop pr dm cap tl b)

/-- What core `c` of the kernel writes: its own three totals over eight tiles, combined. -/
def coreLoss (c : ℕ) : EReal :=
  combine (acc (rowVar pr dm cap tl) c 8) (acc (rowCong pr dm clu cap tl) c 8) (acc (rowTop pr dm cap tl) c 8)

/-- The kernel's loss: the two cores' numbers added. -/
def kernelLoss : EReal := coreLoss pr dm clu cap tl 0 + coreLoss pr dm clu cap tl 1
end loss

end Cert.Spec

end
-- ==== Proof.Algebra.lean ====
/-
  The two arrangements of the loss agree.

  Dividing by the batch size is multiplying by the nonnegative real 1/16384, and each weight is a nonnegative real;
  a nonnegative real factor distributes over a sum of extended reals whatever the summands are (infinite ones included),
  so the weighted combination of two cores' totals is the combination of the added totals.  A core's running total is
  the sum of its eight tiles, the two cores' tiles are the sixteen tiles of the batch, and the sum over the 16384 rows
  is the sum over tiles of the sums over a tile's 1024 rows (row k * 1024 + r of the batch is row r of tile k).
-/
import proofs.«101567_j5549097747152_2_alg».proof.Proof.Spec

noncomputable section

namespace Cert.Spec

open Idealize.ShloMosaic

/-- The batch size word denotes 16384. -/
theorem cB_eq : cB = ((16384 : ℝ) : EReal) := by
  unfold cB; simp [Ideal.ofBits, Ideal.ieee, -EReal.coe_mul]; norm_num

/-- Division by the batch size is multiplication by 1/16384, on every extended real. -/
theorem div_cB (x : EReal) : Ideal.div x cB = x * ((1 / 16384 : ℝ) : EReal) := by
  rw [cB_eq, Ideal.div_coe (by norm_num : (16384 : ℝ) ≠ 0)]

/-- A nonnegative real factor distributes over a sum of two extended reals, on either side. -/
theorem real_mul_add {r : ℝ} (hr : 0 ≤ r) (x y : EReal) : (r : EReal) * (x + y) = (r : EReal) * x + (r : EReal) * y :=
  EReal.left_distrib_of_nonneg_of_ne_top (by exact_mod_cast hr) (EReal.coe_ne_top r) x y
theorem add_mul_real {r : ℝ} (hr : 0 ≤ r) (x y : EReal) : (x + y) * (r : EReal) = x * (r : EReal) + y * (r : EReal) :=
  EReal.right_distrib_of_nonneg_of_ne_top (by exact_mod_cast hr) (EReal.coe_ne_top r) x y

/-- A word of the f32 format whose sign bit is clear and whose exponent field is not all ones denotes a nonnegative real:
    here for the three weights. -/
theorem w3_real : ∃ r : ℝ, 0 ≤ r ∧ w3 = (r : EReal) := by
  refine ⟨_, ?_, by unfold w3; simp [Ideal.ofBits, Ideal.ieee, -EReal.coe_mul]; rfl⟩
  positivity
theorem w5_real : ∃ r : ℝ, 0 ≤ r ∧ w5 = (r : EReal) := by
  refine ⟨_, ?_, by unfold w5; simp [Ideal.ofBits, Ideal.ieee, -EReal.coe_mul]; rfl⟩
  positivity
theorem w2_real : ∃ r : ℝ, 0 ≤ r ∧ w2 = (r : EReal) := by
  refine ⟨_, ?_, by unfold w2; simp [Ideal.ofBits, Ideal.ieee, -EReal.coe_mul]; rfl⟩
  positivity

/-- One weighted mean of an added total is the sum of the weighted means. -/
theorem weighted_add {w : EReal} (hw : ∃ r : ℝ, 0 ≤ r ∧ w = (r : EReal)) (x y : EReal) :
    w * Ideal.div (x + y) cB = w * Ideal.div x cB + w * Ideal.div y cB := by
  obtain ⟨r, hr, rfl⟩ := hw
  rw [div_cB, div_cB, div_cB, add_mul_real (by norm_num) x y, real_mul_add hr]

/-- The combination of added totals is the sum of the combinations. -/
theorem combine_add (a₁ b₁ c₁ a₂ b₂ c₂ : EReal) :
    combine a₁ b₁ c₁ + combine a₂ b₂ c₂ = combine (a₁ + a₂) (b₁ + b₂) (c₁ + c₂) := by
  unfold combine
  rw [weighted_add w3_real, weighted_add w5_real, weighted_add w2_real]
  rw [add_add_add_comm (w3 * Ideal.div a₁ cB + w5 * Ideal.div b₁ cB), add_add_add_comm (w3 * Ideal.div a₁ cB)]

/-- A core's running total after n tiles is the sum of those tiles. -/
theorem acc_eq_sum (f : Fin 16384 → EReal) (c : ℕ) : ∀ n : ℕ, acc f c n = ∑ k ∈ Finset.range n, tileSum f (c * 8 + k)
  | 0 => by simp [acc]
  | n + 1 => by rw [acc, acc_eq_sum f c n, Finset.sum_range_succ]

/-- The sum over all rows is the sum over the sixteen tiles of the sums over a tile's rows. -/
theorem sum_rows (f : Fin 16384 → EReal) : ∑ b : Fin 16384, f b = ∑ k ∈ Finset.range 16, tileSum f k := by
  have e : ∑ b : Fin 16384, f b = ∑ p : Fin 16 × Fin 1024, f (finProdFinEquiv p) :=
    (Equiv.sum_comp (finProdFinEquiv (m := 16) (n := 1024)) f).symm
  rw [e, Fintype.sum_prod_type, Finset.sum_range]
  refine Finset.sum_congr rfl fun k _ => Finset.sum_congr rfl fun r _ => congrArg f (Fin.ext ?_)
  show r.val + 1024 * k.val = (k.val % 16) * 1024 + r.val
  rw [Nat.mod_eq_of_lt k.isLt]; ring

/-- The two cores' running totals after eight tiles each add up to the sum over all rows. -/
theorem acc_add_acc (f : Fin 16384 → EReal) : acc f 0 8 + acc f 1 8 = ∑ b : Fin 16384, f b := by
  rw [acc_eq_sum, acc_eq_sum, sum_rows, show (16 : ℕ) = 8 + 8 from rfl, Finset.sum_range_add]
  simp only [zero_mul, zero_add, one_mul]

/-- The kernel's arrangement of the loss is the reference's. -/
theorem kernelLoss_eq_refLoss (pr : Mat 16384 1020) (dm : Mat 16384 255) (clu : Mat 16384 16) (cap : Vect 16) (tl : Words 1020) :
    kernelLoss pr dm clu cap tl = refLoss pr dm clu cap tl := by
  unfold kernelLoss coreLoss refLoss
  rw [combine_add, acc_add_acc, acc_add_acc, acc_add_acc]

end Cert.Spec

end
-- ==== Proof.RefTerm.lean ====
/-
  The reference's result as one term of its five argument arrays: its host operations composed in program order
  (the one-hot scatter matrix, the repeated demands, the traffic product, the utilisation quotient, the row variance
  with its guarded divisor, the three batch means and the weighted sum), read at the exact instance.
-/
import proofs.«101567_j5549097747152_2_alg».proof.Proof.Gen.ReferenceIdeal
import Idealize.ShloMosaic.PureOps.Ideal

noncomputable section

namespace Cert.ReferenceIdeal.RefTerm

open Cert.ReferenceIdeal Idealize.ShloMosaic Idealize.ShloMosaic.TcCoe
open Cert.ReferenceIdeal.Facts₀

/-- The scatter matrix: 1 where tunnel `t`'s link word equals `l`. -/
def oneHot (a4 : IVec S1020 32) : FVec Ideal S1020x16 .f32 :=
  uitofp .f32 (cmpi .eq
    (broadcastInDim S1020x16 ![0, 1] bcast_S1020x1_S1020x16_0_1 (broadcastInDim S1020x1 ![0] bcast_S1020_S1020x1_0 a4))
    (broadcastInDim S1020x16 ![0, 1] bcast_S1x16_S1020x16_0_1 (iotaInDim S1x16 32 1)))

/-- Tunnel traffic: the ratios times the demands repeated four times along the tunnel axis. -/
def traffic (a0 : FVec Ideal S16384x1020 .f32) (a1 : FVec Ideal S16384x255 .f32) : FVec Ideal S16384x1020 .f32 :=
  mulf a0 (shapeCast S16384x1020 (broadcastInDim S16384x255x4 ![0, 1] bcast_S16384x255_S16384x255x4_0_1 a1) shapeCasts_S16384x255x4_S16384x1020)

/-- Link utilisation: traffic scattered onto the links, over capacity plus epsilon. -/
def util (a0 : FVec Ideal S16384x1020 .f32) (a1 : FVec Ideal S16384x255 .f32) (a3 : FVec Ideal S16 .f32) (a4 : IVec S1020 32) :
    FVec Ideal S16384x16 .f32 :=
  Host.divf (Host.dotGeneral dot_S16384x1020_S1020x16_S16384x16_1_0_0_1_n_n none (traffic a0 a1) (oneHot a4))
    (broadcastInDim S16384x16 ![0, 1] bcast_S1x16_S16384x16_0_1
      (addf (broadcastInDim S1x16 ![1] bcast_S16_S1x16_1 a3) (broadcastInDim S1x16 ![] bcast_S_S1x16 (constant (F := Ideal) S_ .f32 0x322BCC77#32))))

/-- The divisor of the unbiased variance, as the program computes it: 16 minus the correction 1. -/
def ddofDen : FVec Ideal S_ .f32 :=
  subf (constant (F := Ideal) S_ .f32 0x41800000#32) (sitofp .f32 (constantI S_ 32 1#32))

/-- Each row's deviation from its mean over the sixteen links. -/
def centred (u : FVec Ideal S16384x16 .f32) : FVec Ideal S16384x16 .f32 :=
  subf u (broadcastInDim S16384x16 ![0, 1] bcast_S16384x1_S16384x16_0_1
    (Host.divf (broadcastInDim S16384x1 ![0] bcast_S16384_S16384x1_0
        (Host.reduceAdd u (constant (F := Ideal) S_ .f32 0x00000000#32) reducesTo_S16384x16_S16384_d1 h_S_))
      (broadcastInDim S16384x1 ![] bcast_S_S16384x1 (constant (F := Ideal) S_ .f32 0x41800000#32))))

/-- Each row's unbiased variance (the guard selects the quotient when the divisor is positive). -/
def varRows (u : FVec Ideal S16384x16 .f32) : FVec Ideal S16384 .f32 :=
  select (broadcastInDim S16384 ![] bcast_S_S16384 (cmpf .ogt ddofDen (constant (F := Ideal) S_ .f32 0x00000000#32)))
    (Host.divf (Host.reduceAdd (mulf (centred u) (centred u)) (constant (F := Ideal) S_ .f32 0x00000000#32) reducesTo_S16384x16_S16384_d1 h_S_)
      (broadcastInDim S16384 ![] bcast_S_S16384 ddofDen))
    (broadcastInDim S16384 ![] bcast_S_S16384 (id (constant (F := Ideal) S_ .f32 0x7FC00000#32)))

/-- The mean over the batch of a vector of per-row numbers. -/
def batchMean (x : FVec Ideal S16384 .f32) : FVec Ideal S_ .f32 :=
  Host.divf (Host.reduceAdd x (constant (F := Ideal) S_ .f32 0x00000000#32) reducesTo_S16384_S_d0 h_S_) (constant (F := Ideal) S_ .f32 0x46800000#32)

/-- Each row's product-sum with the current utilisations, and each row's largest utilisation. -/
def congRows (u a2 : FVec Ideal S16384x16 .f32) : FVec Ideal S16384 .f32 :=
  Host.reduceAdd (mulf u a2) (constant (F := Ideal) S_ .f32 0x00000000#32) reducesTo_S16384x16_S16384_d1 h_S_
def topRows (u : FVec Ideal S16384x16 .f32) : FVec Ideal S16384 .f32 :=
  Host.reduce FloatOps.maximumf u (constant (F := Ideal) S_ .f32 0xFF800000#32) reducesTo_S16384x16_S16384_d1 h_S_

/-- The reference's result. -/
def out (a0 : FVec Ideal S16384x1020 .f32) (a1 : FVec Ideal S16384x255 .f32) (a2 : FVec Ideal S16384x16 .f32)
    (a3 : FVec Ideal S16 .f32) (a4 : IVec S1020 32) : FVec Ideal S_ .f32 :=
  addf
    (addf (mulf (constant (F := Ideal) S_ .f32 0x3E99999A#32) (batchMean (varRows (util a0 a1 a3 a4))))
      (mulf (constant (F := Ideal) S_ .f32 0x3F000000#32) (batchMean (congRows (util a0 a1 a3 a4) a2))))
    (mulf (constant (F := Ideal) S_ .f32 0x3E4CCCCD#32) (batchMean (topRows (util a0 a1 a3 a4))))

end Cert.ReferenceIdeal.RefTerm

end
-- ==== Proof.RefRun.lean ====
/-
  The reference program's run, read back as one term of its five arguments.

  Its entry function is a straight line of host operations once the three local functions it calls are opened
  where they are called: the link one-hot (six operations), the row variance (nineteen, ending in a guarded
  selection of three more), and thirty-six of its own around them — sixty-four in all.  Run in order from the
  launch memory, they leave in the result buffer the composition of their functions applied to the arguments'
  contents, and leave the five arguments as they were.
-/
import proofs.«101567_j5549097747152_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The sixty-four operations in program order.  Lines 4–9 are the one-hot of the link words, lines 18–36 the
    row variance (mean, deviation, square, sum, the divisor 16 − 1), lines 37–39 its guard (the quotient where
    the divisor is positive, else the quiet NaN), the rest the entry function's own: the repeated demands and the
    traffic product first, the contraction with the one-hot and the division by capacity plus epsilon, and after
    the variance the three batch means and their weighted sum. -/
abbrev ops : List (HloOp τ sig (Elt F)) :=
  [ unary main_arg1 main_v0 (broadcastInDim S16384x255x4 ![0, 1] bcast_S16384x255_S16384x255x4_0_1 : (⟨S16384x255, .f32⟩ : BufTy).Contents (Elt F) → (⟨S16384x255x4, .f32⟩ : BufTy).Contents (Elt F)),
    reshape main_v0 main_v1 rfl shapeCasts_S16384x255x4_S16384x1020,
    binary main_arg0 main_v1 main_v2 (mulf : (⟨S16384x1020, .f32⟩ : BufTy).Contents (Elt F) → (⟨S16384x1020, .f32⟩ : BufTy).Contents (Elt F) → (⟨S16384x1020, .f32⟩ : BufTy).Contents (Elt F)),
    unary main_arg4 main_call0_v0 (broadcastInDim S1020x1 ![0] bcast_S1020_S1020x1_0 : (⟨S1020, .i32⟩ : BufTy).Contents (Elt F) → (⟨S1020x1, .i32⟩ : BufTy).Contents (Elt F)),
    nullary main_call0_v1 (iotaInDim S1x16 32 1),
    unary main_call0_v0 main_call0_v2 (broadcastInDim S1020x16 ![0, 1] bcast_S1020x1_S1020x16_0_1 : (⟨S1020x1, .i32⟩ : BufTy).Contents (Elt F) → (⟨S1020x16, .i32⟩ : BufTy).Contents (Elt F)),
    unary main_call0_v1 main_call0_v3 (broadcastInDim S1020x16 ![0, 1] bcast_S1x16_S1020x16_0_1 : (⟨S1x16, .i32⟩ : BufTy).Contents (Elt F) → (⟨S1020x16, .i32⟩ : BufTy).Contents (Elt F)),
    binary main_call0_v2 main_call0_v3 main_call0_v4 (cmpi .eq : (⟨S1020x16, .i32⟩ : BufTy).Contents (Elt F) → (⟨S1020x16, .i32⟩ : BufTy).Contents (Elt F) → (⟨S1020x16, .i1⟩ : BufTy).Contents (Elt F)),
    unary main_call0_v4 main_v3 (uitofp .f32 : (⟨S1020x16, .i1⟩ : BufTy).Contents (Elt F) → (⟨S1020x16, .f32⟩ : BufTy).Contents (Elt F)),
    binary main_v2 main_v3 main_v4 ((fun l r => Host.dotGeneral dot_S16384x1020_S1020x16_S16384x16_1_0_0_1_n_n none l r) : (⟨S16384x1020, .f32⟩ : BufTy).Contents (Elt F) → (⟨S1020x16, .f32⟩ : BufTy).Contents (Elt F) → (⟨S16384x16, .f32⟩ : BufTy).Contents (Elt F)),
    unary main_arg3 main_v5 (broadcastInDim S1x16 ![1] bcast_S16_S1x16_1 : (⟨S16, .f32⟩ : BufTy).Contents (Elt F) → (⟨S1x16, .f32⟩ : BufTy).Contents (Elt F)),
    nullary main_cst (constant S_ .f32 0x322BCC77#32),
    unary main_cst main_v6 (broadcastInDim S1x16 ![] bcast_S_S1x16 : (⟨S_, .f32⟩ : BufTy).Contents (Elt F) → (⟨S1x16, .f32⟩ : BufTy).Contents (Elt F)),
    binary main_v5 main_v6 main_v7 (addf : (⟨S1x16, .f32⟩ : BufTy).Contents (Elt F) → (⟨S1x16, .f32⟩ : BufTy).Contents (Elt F) → (⟨S1x16, .f32⟩ : BufTy).Contents (Elt F)),
    unary main_v7 main_v8 (broadcastInDim S16384x16 ![0, 1] bcast_S1x16_S16384x16_0_1 : (⟨S1x16, .f32⟩ : BufTy).Contents (Elt F) → (⟨S16384x16, .f32⟩ : BufTy).Contents (Elt F)),
    binary main_v4 main_v8 main_v9 (Host.divf : (⟨S16384x16, .f32⟩ : BufTy).Contents (Elt F) → (⟨S16384x16, .f32⟩ : BufTy).Contents (Elt F) → (⟨S16384x16, .f32⟩ : BufTy).Contents (Elt F)),
    nullary main_c (constantI S_ 32 1#32),
    nullary main_call1_cst (constant S_ .f32 0x00000000#32),
    binary main_v9 main_call1_cst main_call1_v0 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    unary main_call1_v0 main_call1_v1 (broadcastInDim S16384x1 ![0] bcast_S16384_S16384x1_0 : (⟨S16384, .f32⟩ : BufTy).Contents (Elt F) → (⟨S16384x1, .f32⟩ : BufTy).Contents (Elt F)),
    nullary main_call1_cst_0 (constant S_ .f32 0x41800000#32),
    unary main_call1_cst_0 main_call1_v2 (broadcastInDim S16384x1 ![] bcast_S_S16384x1 : (⟨S_, .f32⟩ : BufTy).Contents (Elt F) → (⟨S16384x1, .f32⟩ : BufTy).Contents (Elt F)),
    binary main_call1_v1 main_call1_v2 main_call1_v3 (Host.divf : (⟨S16384x1, .f32⟩ : BufTy).Contents (Elt F) → (⟨S16384x1, .f32⟩ : BufTy).Contents (Elt F) → (⟨S16384x1, .f32⟩ : BufTy).Contents (Elt F)),
    unary main_call1_v3 main_call1_v4 (broadcastInDim S16384x16 ![0, 1] bcast_S16384x1_S16384x16_0_1 : (⟨S16384x1, .f32⟩ : BufTy).Contents (Elt F) → (⟨S16384x16, .f32⟩ : BufTy).Contents (Elt F)),
    binary main_v9 main_call1_v4 main_call1_v5 (subf : (⟨S16384x16, .f32⟩ : BufTy).Contents (Elt F) → (⟨S16384x16, .f32⟩ : BufTy).Contents (Elt F) → (⟨S16384x16, .f32⟩ : BufTy).Contents (Elt F)),
    binary main_call1_v5 main_call1_v5 main_call1_v6 (mulf : (⟨S16384x16, .f32⟩ : BufTy).Contents (Elt F) → (⟨S16384x16, .f32⟩ : BufTy).Contents (Elt F) → (⟨S16384x16, .f32⟩ : BufTy).Contents (Elt F)),
    unary main_c main_call1_v7 (sitofp .f32 : (⟨S_, .i32⟩ : BufTy).Contents (Elt F) → (⟨S_, .f32⟩ : BufTy).Contents (Elt F)),
    nullary main_call1_cst_1 (constant S_ .f32 0x41800000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    unary main_call1_v8 main_call1_v10 (broadcastInDim S16384 ![] bcast_S_S16384 : (⟨S_, .f32⟩ : BufTy).Contents (Elt F) → (⟨S16384, .f32⟩ : BufTy).Contents (Elt F)),
    binary main_call1_v9 main_call1_v10 main_call1_v11 (Host.divf : (⟨S16384, .f32⟩ : BufTy).Contents (Elt F) → (⟨S16384, .f32⟩ : BufTy).Contents (Elt F) → (⟨S16384, .f32⟩ : BufTy).Contents (Elt F)),
    nullary main_call1_cst_3 (constant S_ .f32 0x00000000#32),
    binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S16384 ![] bcast_S_S16384 : (⟨S_, .f32⟩ : BufTy).Contents (Elt F) → (⟨S16384, .f32⟩ : BufTy).Contents (Elt F)),
    ternary main_call1_v12 main_call1_v11 main_call1_call0_v1 main_v10 ((fun p a b => select (broadcastInDim S16384 ![] bcast_S_S16384 p) a b) : (⟨S_, .i1⟩ : BufTy).Contents (Elt F) → (⟨S16384, .f32⟩ : BufTy).Contents (Elt F) → (⟨S16384, .f32⟩ : BufTy).Contents (Elt F) → (⟨S16384, .f32⟩ : BufTy).Contents (Elt F)),
    nullary main_cst_0 (constant S_ .f32 0x00000000#32),
    binary main_v10 main_cst_0 main_v11 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_1 (constant S_ .f32 0x46800000#32),
    binary main_v11 main_cst_1 main_v12 (Host.divf : (⟨S_, .f32⟩ : BufTy).Contents (Elt F) → (⟨S_, .f32⟩ : BufTy).Contents (Elt F) → (⟨S_, .f32⟩ : BufTy).Contents (Elt F)),
    binary main_v9 main_arg2 main_v13 (mulf : (⟨S16384x16, .f32⟩ : BufTy).Contents (Elt F) → (⟨S16384x16, .f32⟩ : BufTy).Contents (Elt F) → (⟨S16384x16, .f32⟩ : BufTy).Contents (Elt F)),
    nullary main_cst_2 (constant S_ .f32 0x00000000#32),
    binary main_v13 main_cst_2 main_v14 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_3 (constant S_ .f32 0x00000000#32),
    binary main_v14 main_cst_3 main_v15 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_4 (constant S_ .f32 0x46800000#32),
    binary main_v15 main_cst_4 main_v16 (Host.divf : (⟨S_, .f32⟩ : BufTy).Contents (Elt F) → (⟨S_, .f32⟩ : BufTy).Contents (Elt F) → (⟨S_, .f32⟩ : BufTy).Contents (Elt F)),
    nullary main_cst_5 (constant S_ .f32 0xFF800000#32),
    binary main_v9 main_cst_5 main_v17 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_6 (constant S_ .f32 0x00000000#32),
    binary main_v17 main_cst_6 main_v18 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_7 (constant S_ .f32 0x46800000#32),
    binary main_v18 main_cst_7 main_v19 (Host.divf : (⟨S_, .f32⟩ : BufTy).Contents (Elt F) → (⟨S_, .f32⟩ : BufTy).Contents (Elt F) → (⟨S_, .f32⟩ : BufTy).Contents (Elt F)),
    nullary main_cst_8 (constant S_ .f32 0x3E99999A#32),
    binary main_cst_8 main_v12 main_v20 (mulf : (⟨S_, .f32⟩ : BufTy).Contents (Elt F) → (⟨S_, .f32⟩ : BufTy).Contents (Elt F) → (⟨S_, .f32⟩ : BufTy).Contents (Elt F)),
    nullary main_cst_9 (constant S_ .f32 0x3F000000#32),
    binary main_cst_9 main_v16 main_v21 (mulf : (⟨S_, .f32⟩ : BufTy).Contents (Elt F) → (⟨S_, .f32⟩ : BufTy).Contents (Elt F) → (⟨S_, .f32⟩ : BufTy).Contents (Elt F)),
    binary main_v20 main_v21 main_v22 (addf : (⟨S_, .f32⟩ : BufTy).Contents (Elt F) → (⟨S_, .f32⟩ : BufTy).Contents (Elt F) → (⟨S_, .f32⟩ : BufTy).Contents (Elt F)),
    nullary main_cst_10 (constant S_ .f32 0x3E4CCCCD#32),
    binary main_cst_10 main_v19 main_v23 (mulf : (⟨S_, .f32⟩ : BufTy).Contents (Elt F) → (⟨S_, .f32⟩ : BufTy).Contents (Elt F) → (⟨S_, .f32⟩ : BufTy).Contents (Elt F)),
    binary main_v22 main_v23 main_v24 (addf : (⟨S_, .f32⟩ : BufTy).Contents (Elt F) → (⟨S_, .f32⟩ : BufTy).Contents (Elt F) → (⟨S_, .f32⟩ : BufTy).Contents (Elt F)) ]

-- sixty-four binds re-associated: the rewrite under the chain recurses once per statement
set_option maxRecDepth 4096 in
/-- The entry function is that straight line: the local functions' definitions opened at their calls, both sides
    are one chain of steps once sequencing is re-associated; a callee's operation over the record of one call is the
    plain operation at that call's buffers, the transport along a literal buffer's type being the identity. -/
theorem main_eq (c : Dev nD) : main (F := F) c = seq ops := by
  simp only [main, fn_one_hot.body, fn_var.body, fn_where.body, seq, bind_assoc, pure_bind]
  first | done | rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., binary_bufs_sub .., unary_bufs_sub .., nullary_bufs_sub .., unary_bufs_sub .., unary_bufs_sub .., binary_bufs_sub .., unary_bufs_sub .., binary_bufs_sub .., unary_bufs_sub .., nullary_bufs_sub .., unary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub ..⟩

attribute [local irreducible] Host.reduce Host.reduceAdd Ideal.matmul Ideal.hostReduceAdd in
set_option maxHeartbeats 800000 in
/-- What the result buffer holds after the line is the composed term: each operation's result at its own buffer is
    its function of its operands' contents, and at any other buffer what was there.  The row sums, the row maximum and
    the contraction over tunnels are kept folded meanwhile: the equation never looks inside them. -/
theorem out_eq (V : Valuation τ sig (Elt Ideal)) :
    after (ops (F := Ideal)) V (main_v24 : DevRef τ sig)
      = RefTerm.out (V (main_arg0 : DevRef τ sig)) (V (main_arg1 : DevRef τ sig)) (V (main_arg2 : DevRef τ sig))
          (V (main_arg3 : DevRef τ sig)) (V (main_arg4 : DevRef τ sig)) := by
  unfold RefTerm.out RefTerm.batchMean RefTerm.varRows RefTerm.congRows RefTerm.topRows RefTerm.centred RefTerm.ddofDen
    RefTerm.util RefTerm.traffic RefTerm.oneHot
  after_results_simp
  first | done | rfl

/-- No operation of the line writes an argument's buffer. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

/-- On the one device, at exact arithmetic, from any memory with zero counters: every weakly fair execution of the
    entry function terminates with the result buffer at the composed term of the arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24)
          = RefTerm.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v24).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RefRun

end
-- ==== Proof.RefUtil.lean ====
/-
  The reference's utilisation array read at one (row, link) pair.

  The traffic matrix at (b, t) is p(b,t) * q(b, t / 4): the demands are repeated four times along the tunnel axis by a
  broadcast to [16384, 255, 4] followed by a row-major reshape to [16384, 1020], and position t of the merged axis is
  (t / 4, t % 4).  The scatter matrix at (t, l) is 1 when tunnel t's link word is the word l, else 0.  Their product at
  (b, l) is the sum over the 1020 tunnels, and the quotient by (capacity(l) + eps) is the utilisation.
-/
import proofs.«101567_j5549097747152_2_alg».proof.Proof.RefTerm
import proofs.«101567_j5549097747152_2_alg».proof.Proof.Spec
import Idealize.ShloMosaic.Lib.ValueIdx
import Idealize.ShloMosaic.Lib.Pipeline.Value
import Idealize.ShloMosaic.Lib.IdealHost
import Idealize.ShloMosaic.Lib.StackMember

noncomputable section

open scoped BigOperators

namespace Cert.ReferenceIdeal.RefUtil

open Cert.ReferenceIdeal Idealize.ShloMosaic Idealize.ShloMosaic.TcCoe
open Cert.ReferenceIdeal.Facts₀
open Idealize.ShloMosaic.ValueIdx

/-- The demands repeated four times along the tunnel axis, at (b, t): position t of the merged axis [255 * 4] is
    (t / 4, t % 4) in row-major order, and the broadcast along the new last axis forgets t % 4. -/
theorem repeat_apply (a1 : FVec Ideal S16384x255 .f32) (b : Fin 16384) (t : Fin 1020) :
    shapeCast S16384x1020 (broadcastInDim S16384x255x4 ![0, 1] bcast_S16384x255_S16384x255x4_0_1 a1)
        shapeCasts_S16384x255x4_S16384x1020 (ix2 b t)
      = a1 (ix2 b (Cert.Spec.dst t)) := by
  have ht : t.val < 1020 := t.isLt
  refine (shapeCast_apply _ shapeCasts_S16384x255x4_S16384x1020 (ix2 b t)
    (ix3 b (Cert.Spec.dst t) (⟨t.val % 4, Nat.mod_lt _ (by decide)⟩ : Fin 4)) ?_).trans ?_
  · rw [Shape.rowMajor_val_three, Shape.rowMajor_val_two]
    show (b.val * 255 + t.val / 4) * 4 + t.val % 4 = b.val * 1020 + t.val
    omega
  · refine broadcastInDim_apply _ _ a1 _ (ix2 b (Cert.Spec.dst t)) ?_
    intro a
    match a with
    | ⟨0, _⟩ => rfl
    | ⟨1, _⟩ => rfl

/-- The traffic at (b, t) is the ratio times the demand of the tunnel's destination. -/
theorem traffic_apply (a0 : FVec Ideal S16384x1020 .f32) (a1 : FVec Ideal S16384x255 .f32) (b : Fin 16384) (t : Fin 1020) :
    RefTerm.traffic a0 a1 (ix2 b t) = a0 (ix2 b t) * a1 (ix2 b (Cert.Spec.dst t)) := by
  unfold RefTerm.traffic
  rw [mulf_apply, repeat_apply]

/-- The link words copied along the link axis, at (t, l): tunnel t's word. -/
theorem words_apply (a4 : IVec S1020 32) (t : Fin 1020) (l : Fin 16) :
    broadcastInDim S1020x16 ![0, 1] bcast_S1020x1_S1020x16_0_1 (broadcastInDim S1020x1 ![0] bcast_S1020_S1020x1_0 a4) (ix2 t l)
      = a4 (ix1 t) := by
  refine (broadcastInDim_apply _ _ _ _ (ix2 t (0 : Fin 1)) ?_).trans ?_
  · intro a
    match a with
    | ⟨0, _⟩ => rfl
    | ⟨1, _⟩ => rfl
  · refine broadcastInDim_apply _ _ a4 _ (ix1 t) ?_
    intro a
    match a with
    | ⟨0, _⟩ => rfl

/-- The link numbers copied along the tunnel axis, at (t, l): the word l. -/
theorem links_apply (t : Fin 1020) (l : Fin 16) :
    broadcastInDim S1020x16 ![0, 1] bcast_S1x16_S1020x16_0_1 (iotaInDim S1x16 32 1) (ix2 t l) = BitVec.ofNat 32 l.val := by
  refine (broadcastInDim_apply _ _ _ _ (ix2 (0 : Fin 1) l) ?_).trans ?_
  · intro a
    match a with
    | ⟨0, _⟩ => rfl
    | ⟨1, _⟩ => rfl
  · rfl

/-- The equality bit of two words, read as an unsigned number, is 1 when they are equal and 0 otherwise. -/
theorem eqBit_toReal (x y : BitVec 32) :
    FloatOps.uitofp (F := Ideal) .f32 (IntOp.cmpi .eq x y) = if x = y then (1 : EReal) else 0 := by
  show (((BitVec.ofBool (x == y)).toNat : ℝ) : EReal) = _
  by_cases h : x = y
  · subst h
    rw [if_pos rfl]
    simp
  · rw [if_neg h]
    have hb : (x == y) = false := by simpa using h
    rw [hb]
    simp

/-- The scatter matrix at (t, l): 1 when tunnel t's link word is the word l, else 0. -/
theorem oneHot_apply (a4 : IVec S1020 32) (t : Fin 1020) (l : Fin 16) :
    RefTerm.oneHot a4 (ix2 t l) = Cert.Spec.hot a4 t l := by
  unfold RefTerm.oneHot Cert.Spec.hot
  show FloatOps.uitofp (F := Ideal) .f32 (IntOp.cmpi .eq
      (broadcastInDim S1020x16 ![0, 1] bcast_S1020x1_S1020x16_0_1 (broadcastInDim S1020x1 ![0] bcast_S1020_S1020x1_0 a4) (ix2 t l))
      (broadcastInDim S1020x16 ![0, 1] bcast_S1x16_S1020x16_0_1 (iotaInDim S1x16 32 1) (ix2 t l))) = _
  rw [words_apply, links_apply, eqBit_toReal]

/-- The product of the traffic and scatter matrices at (b, l): the sum over the 1020 tunnels. -/
theorem dot_apply (x : FVec Ideal S16384x1020 .f32) (y : FVec Ideal S1020x16 .f32) (b : Fin 16384) (l : Fin 16) :
    Host.dotGeneral dot_S16384x1020_S1020x16_S16384x16_1_0_0_1_n_n none x y (ix2 b l)
      = ∑ t : Fin 1020, x (ix2 b t) * y (ix2 t l) :=
  StackMember.dotGeneral_plain_apply none x y b l

/-- The divisor at (b, l): link l's capacity plus eps. -/
theorem den_apply (a3 : FVec Ideal S16 .f32) (b : Fin 16384) (l : Fin 16) :
    broadcastInDim S16384x16 ![0, 1] bcast_S1x16_S16384x16_0_1
        (addf (broadcastInDim S1x16 ![1] bcast_S16_S1x16_1 a3)
          (broadcastInDim S1x16 ![] bcast_S_S1x16 (constant (F := Ideal) S_ .f32 0x322BCC77#32))) (ix2 b l)
      = a3 (ix1 l) + Cert.Spec.eps := by
  refine (broadcastInDim_apply _ _ _ _ (ix2 (0 : Fin 1) l) ?_).trans ?_
  · intro a
    match a with
    | ⟨0, _⟩ => rfl
    | ⟨1, _⟩ => rfl
  · rw [addf_apply, broadcastInDim_scalar_apply, constant_apply]
    refine congrArg (· + Cert.Spec.eps) ?_
    refine broadcastInDim_apply _ _ a3 _ (ix1 l) ?_
    intro a
    match a with
    | ⟨0, _⟩ => rfl

/-- The utilisation array at (b, l). -/
theorem util_apply (a0 : FVec Ideal S16384x1020 .f32) (a1 : FVec Ideal S16384x255 .f32) (a3 : FVec Ideal S16 .f32) (a4 : IVec S1020 32)
    (b : Fin 16384) (l : Fin 16) :
    RefTerm.util a0 a1 a3 a4 (ix2 b l) = Cert.Spec.util a0 a1 a3 a4 b l := by
  unfold RefTerm.util Cert.Spec.util
  rw [hostDivf_apply, dot_apply, den_apply]
  refine congrArg (fun s => Ideal.div s (a3 (ix1 l) + Cert.Spec.eps)) ?_
  refine Finset.sum_congr rfl fun t _ => ?_
  rw [traffic_apply, oneHot_apply]

end Cert.ReferenceIdeal.RefUtil

end
-- ==== Proof.RefRows.lean ====
/-
  The reference's per-row numbers and its batch means, read at an index.

  A host sum over one axis, read at a reduced index, is its initial value (the word 0, which denotes 0) plus the sum of
  the operand over that axis's coordinates; a host maximum over one axis is the fold of max from its initial value (the
  word of minus infinity) over them; a host sum over the only axis is the initial value plus the sum over every index.
  A column [16384] broadcast to [16384,1] and then along the sixteen links reads, at (b,l), the column's entry b.
  The divisor of the unbiased variance is the word of 16 minus the integer 1, which is the number the word of 15
  denotes; it is positive, so the guard selects the quotient.
-/
import proofs.«101567_j5549097747152_2_alg».proof.Proof.RefTerm
import proofs.«101567_j5549097747152_2_alg».proof.Proof.Spec
import proofs.«101567_j5549097747152_2_alg».proof.Proof.RefUtil
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefRows

open Cert.ReferenceIdeal Idealize.ShloMosaic Idealize.ShloMosaic.TcCoe Idealize.ShloMosaic.ValueIdx
open Cert.ReferenceIdeal.Facts₀

/-! ## The inserted index of the reduction over the links, and the batch's index set -/

/-- Row b of a [16384,16] array with link l put back on the dropped axis is the index (b,l). -/
theorem lift_row (h : S16384x16.Reduces [1] S16384) (b : Fin 16384) (l : Fin 16) :
    h.lift (ix1 b) l = ix2 b l := by
  funext c; apply Fin.ext
  fin_cases c <;> rfl

/-- The index set of a vector of 16384 entries is the set of its coordinates. -/
def idxEquiv1 : S16384.Idx ≃ Fin 16384 where
  toFun i := i 0
  invFun := ix1
  left_inv i := (eq_ix1 i).symm
  right_inv _ := rfl

/-! ## A row's sum, a row's maximum, the batch sum -/

/-- The host sum over the links from the word 0, at row b: the sum over the sixteen links. -/
theorem rowSum_apply (x : FVec Ideal S16384x16 .f32) (h' : S16384x16.ReducesTo [1] S16384) (hu : 0 < S_.numel) (b : Fin 16384) :
    Host.reduceAdd (F := Ideal) x (constant (F := Ideal) S_ .f32 0x00000000#32) h' hu (ix1 b) = ∑ l : Fin 16, x (ix2 b l) := by
  have h : S16384x16.Reduces [1] S16384 := by decide
  refine (hostReduceAdd_apply x _ h' hu (ix1 b)).trans ?_
  refine (Ideal.hostReduceAdd_single h' h x _ (ix1 b)).trans ?_
  rw [constant_apply, Ideal.ofBits_zero_f32, zero_add]
  exact Finset.sum_congr rfl fun l _ => congrArg x (lift_row h b l)

/-- The host maximum over the links from the word of minus infinity, at row b: the fold of max over the sixteen links. -/
theorem rowMax_apply (x : FVec Ideal S16384x16 .f32) (h' : S16384x16.ReducesTo [1] S16384) (hu : 0 < S_.numel) (b : Fin 16384) :
    Host.reduce FloatOps.maximumf x (constant (F := Ideal) S_ .f32 0xFF800000#32) h' hu (ix1 b)
      = Cert.Spec.top (fun l => x (ix2 b l)) := by
  have h : S16384x16.Reduces [1] S16384 := by decide
  refine (Host.reduce_eq_fold_single FloatOps.maximumf x _ h' h hu (ix1 b)).trans ?_
  have hf : (x ∘ h.lift (ix1 b)) = fun l : Fin 16 => x (ix2 b l) := funext fun l => congrArg x (lift_row h b l)
  exact congrArg (fun f => Finset.fold max (Ideal.ofBits .f32 0xFF800000#32) f (Finset.univ : Finset (Fin 16))) hf

/-- The host sum over the batch from the word 0: the sum over the 16384 rows (the result has no axis, so every
    index of the operand is summed; the index set is re-indexed by its one coordinate). -/
theorem batchSum_apply (x : FVec Ideal S16384 .f32) (h' : S16384.ReducesTo [0] S_) (hu : 0 < S_.numel) (j : S_.Idx) :
    Host.reduceAdd (F := Ideal) x (constant (F := Ideal) S_ .f32 0x00000000#32) h' hu j = ∑ b : Fin 16384, x (ix1 b) := by
  refine (hostReduceAdd_apply x _ h' hu j).trans ?_
  refine (Ideal.hostReduceAdd_total h' (fun b => b.elim0) x _ j).trans ?_
  rw [constant_apply, Ideal.ofBits_zero_f32, zero_add]
  exact (Equiv.sum_comp idxEquiv1.symm x).symm

/-! ## The divisor of the unbiased variance and its guard -/

/-- The word 0x41800000 denotes 16, the word 0x41700000 denotes 15. -/
theorem ofBits_16 : Ideal.ofBits .f32 0x41800000#32 = ((16 : ℝ) : EReal) := by
  simp [Ideal.ofBits, Ideal.ieee, -EReal.coe_mul]; norm_num

theorem ofBits_15 : Ideal.ofBits .f32 0x41700000#32 = ((15 : ℝ) : EReal) := by
  simp [Ideal.ofBits, Ideal.ieee, -EReal.coe_mul]; norm_num

/-- 16 minus the integer 1 is 15: a difference of two reals, taken in the extended reals. -/
theorem ddofDen_eq : RefTerm.ddofDen ix0 = Cert.Spec.c15 := by
  unfold RefTerm.ddofDen Cert.Spec.c15
  refine (subf_apply _ _ ix0).trans ?_
  show Ideal.ofBits .f32 0x41800000#32 - (((1#32 : BitVec 32).toInt : ℝ) : EReal) = Ideal.ofBits .f32 0x41700000#32
  rw [ofBits_16, ofBits_15, ← EReal.coe_sub]
  norm_num

/-- 15 is positive, so the comparison "divisor > 0" is the word 1. -/
theorem guard_eq : cmpf .ogt RefTerm.ddofDen (constant (F := Ideal) S_ .f32 0x00000000#32) ix0 = 1#1 := by
  refine (cmpf_apply _ _ _ ix0).trans ?_
  rw [Ideal.cmpf_def, ddofDen_eq, constant_apply, Ideal.ofBits_zero_f32]
  have h0 : (0 : EReal) < Cert.Spec.c15 := by
    unfold Cert.Spec.c15; rw [ofBits_15]; exact_mod_cast (by norm_num : (0 : ℝ) < 15)
  unfold Ideal.cmp
  simp [h0]

/-! ## The per-row numbers -/

/-- A row's deviations from its mean: the mean is the row's sum over the word of 16, read from the column it was
    broadcast from. -/
theorem centred_apply (u : FVec Ideal S16384x16 .f32) (b : Fin 16384) (l : Fin 16) :
    RefTerm.centred u (ix2 b l) = u (ix2 b l) - Cert.Spec.mean (fun l => u (ix2 b l)) := by
  unfold RefTerm.centred
  refine (subf_apply _ _ (ix2 b l)).trans ?_
  refine congrArg (u (ix2 b l) - ·) ?_
  refine (broadcastInDim_apply _ _ _ (ix2 b l) (ix2 b (0 : Fin 1)) ?_).trans ?_
  · intro a; fin_cases a <;> rfl
  refine (hostDivf_apply _ _ _).trans ?_
  unfold Cert.Spec.mean
  refine congrArg₂ Ideal.div ?_ ?_
  · refine (broadcastInDim_apply _ _ _ (ix2 b (0 : Fin 1)) (ix1 b) ?_).trans (rowSum_apply u _ _ b)
    intro a; fin_cases a; rfl
  · exact broadcastInDim_scalar_apply _ _ _

theorem varRows_apply (u : FVec Ideal S16384x16 .f32) (b : Fin 16384) :
    RefTerm.varRows u (ix1 b) = Cert.Spec.var (fun l => u (ix2 b l)) := by
  unfold RefTerm.varRows
  refine (select_apply _ _ _ (ix1 b)).trans ?_
  rw [broadcastInDim_scalar_apply, guard_eq, select_one]
  refine (hostDivf_apply _ _ _).trans ?_
  unfold Cert.Spec.var
  refine congrArg₂ Ideal.div ?_ ?_
  · refine (rowSum_apply _ _ _ b).trans (Finset.sum_congr rfl fun l _ => ?_)
    rw [mulf_apply, centred_apply]
  · exact (broadcastInDim_scalar_apply _ _ _).trans ddofDen_eq

theorem congRows_apply (u a2 : FVec Ideal S16384x16 .f32) (b : Fin 16384) :
    RefTerm.congRows u a2 (ix1 b) = Cert.Spec.cong (fun l => u (ix2 b l)) (fun l => a2 (ix2 b l)) := by
  unfold RefTerm.congRows Cert.Spec.cong
  exact (rowSum_apply _ _ _ b).trans (Finset.sum_congr rfl fun l _ => mulf_apply _ _ _)

theorem topRows_apply (u : FVec Ideal S16384x16 .f32) (b : Fin 16384) :
    RefTerm.topRows u (ix1 b) = Cert.Spec.top (fun l => u (ix2 b l)) := by
  unfold RefTerm.topRows
  exact rowMax_apply u _ _ b

/-! ## The batch mean and the result -/

theorem batchMean_apply (x : FVec Ideal S16384 .f32) (j : S_.Idx) :
    RefTerm.batchMean x j = Ideal.div (∑ b : Fin 16384, x (ix1 b)) Cert.Spec.cB := by
  unfold RefTerm.batchMean
  refine (hostDivf_apply _ _ j).trans ?_
  exact congrArg₂ Ideal.div (batchSum_apply x _ _ j) rfl

/-- The reference's result is the loss: each batch mean is the total of its per-row numbers over the batch size, each
    per-row number is the row's variance, product-sum or maximum of the utilisations, and the three are weighed and added. -/
theorem out_eq (a0 : FVec Ideal S16384x1020 .f32) (a1 : FVec Ideal S16384x255 .f32) (a2 : FVec Ideal S16384x16 .f32)
    (a3 : FVec Ideal S16 .f32) (a4 : IVec S1020 32) :
    RefTerm.out a0 a1 a2 a3 a4 = fun _ => Cert.Spec.refLoss a0 a1 a2 a3 a4 := by
  funext j
  have hrow : ∀ b : Fin 16384, (fun l : Fin 16 => RefTerm.util a0 a1 a3 a4 (ix2 b l)) = Cert.Spec.util a0 a1 a3 a4 b :=
    fun b => funext fun l => RefUtil.util_apply a0 a1 a3 a4 b l
  have hv : ∑ b : Fin 16384, RefTerm.varRows (RefTerm.util a0 a1 a3 a4) (ix1 b) = ∑ b : Fin 16384, Cert.Spec.rowVar a0 a1 a3 a4 b :=
    Finset.sum_congr rfl fun b _ => (varRows_apply _ b).trans (congrArg Cert.Spec.var (hrow b))
  have hc : ∑ b : Fin 16384, RefTerm.congRows (RefTerm.util a0 a1 a3 a4) a2 (ix1 b) = ∑ b : Fin 16384, Cert.Spec.rowCong a0 a1 a2 a3 a4 b :=
    Finset.sum_congr rfl fun b _ => (congRows_apply _ a2 b).trans (congrArg (fun f => Cert.Spec.cong f (fun l => a2 (ix2 b l))) (hrow b))
  have ht : ∑ b : Fin 16384, RefTerm.topRows (RefTerm.util a0 a1 a3 a4) (ix1 b) = ∑ b : Fin 16384, Cert.Spec.rowTop a0 a1 a3 a4 b :=
    Finset.sum_congr rfl fun b _ => (topRows_apply _ b).trans (congrArg Cert.Spec.top (hrow b))
  unfold RefTerm.out Cert.Spec.refLoss Cert.Spec.combine
  rw [addf_apply, addf_apply, mulf_apply, mulf_apply, mulf_apply, batchMean_apply, batchMean_apply, batchMean_apply, hv, hc, ht]
  rfl

end Cert.ReferenceIdeal.RefRows

end
-- ==== Proof.KernelPieces.lean ====
/-
  What the kernel's carried totals and its output block hold after each grid point.

  The grid has sixteen points; point n handles tile n of the batch (rows n * 1024 … n * 1024 + 1023) on core n / 8.
  The body keeps three one-element totals between points: the sum of the rows' variances, of their product-sums and of
  their maxima.  At a core's first point (n % 8 = 0) they are reset to zero before the tile is added; at every point the
  tile's 1024 row values are added; at a core's last point (n % 8 = 7) the block written back holds, in each of its
  8 × 128 elements, the weighted combination of the three totals divided by the batch size.
-/
import proofs.«101567_j5549097747152_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a core's first tile the variance total is reset and the tile's rows are added: zero plus the tile. -/
theorem first_0 (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S1024x1020 .f32) (x1 : Vec F S1024x255 .f32) (x2 : Vec F S1024x16 .f32) (x3 : Vec F S255x1020 .bf16) (x4 : Vec F S1020x16 .bf16) (x5 : Vec F S1x16 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay9 x1 x0 x3 x4 x5) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

/-- At a core's first tile the product-sum total is reset and the tile's rows are added: zero plus the tile. -/
theorem first_1 (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S1024x1020 .f32) (x1 : Vec F S1024x255 .f32) (x2 : Vec F S1024x16 .f32) (x3 : Vec F S255x1020 .bf16) (x4 : Vec F S1020x16 .bf16) (x5 : Vec F S1x16 .f32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay10 x1 x0 x3 x4 x2 x5) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

/-- At a core's first tile the maximum total is reset and the tile's rows are added: zero plus the tile. -/
theorem first_2 (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S1024x1020 .f32) (x1 : Vec F S1024x255 .f32) (x2 : Vec F S1024x16 .f32) (x3 : Vec F S255x1020 .bf16) (x4 : Vec F S1020x16 .bf16) (x5 : Vec F S1x16 .f32) :
    sout0_A_2 c i arg2 harg2 arg3 harg3 arg4 harg4 arg5 harg5 arg6 harg6 arg7 harg7 arg8 harg8 arg9 harg9 arg10 harg10 arg11 harg11 hc0 hc1 x0 x1 x2 x3 x4 x5 = k0_pay3 (k0_pay8 x1 x0 x3 x4 x5) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

/-- At a middle tile the variance total carried from the tile before takes the tile's rows. -/
theorem middle_0 (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S1024x1020 .f32) (x1 : Vec F S1024x255 .f32) (x2 : Vec F S1024x16 .f32) (x3 : Vec F S255x1020 .bf16) (x4 : Vec F S1020x16 .bf16) (x5 : Vec F S1x16 .f32) (xs0 : Vec F S1x1 .f32) (xs1 : Vec F S1x1 .f32) (xs2 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay1 (k0_pay9 x1 x0 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero (S := S1x1) hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

/-- At a middle tile the product-sum total carried from the tile before takes the tile's rows. -/
theorem middle_1 (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S1024x1020 .f32) (x1 : Vec F S1024x255 .f32) (x2 : Vec F S1024x16 .f32) (x3 : Vec F S255x1020 .bf16) (x4 : Vec F S1020x16 .bf16) (x5 : Vec F S1x16 .f32) (xs0 : Vec F S1x1 .f32) (xs1 : Vec F S1x1 .f32) (xs2 : Vec F S1x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay2 (k0_pay10 x1 x0 x3 x4 x2 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero (S := S1x1) hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

/-- At a middle tile the maximum total carried from the tile before takes the tile's rows. -/
theorem middle_2 (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S1024x1020 .f32) (x1 : Vec F S1024x255 .f32) (x2 : Vec F S1024x16 .f32) (x3 : Vec F S255x1020 .bf16) (x4 : Vec F S1020x16 .bf16) (x5 : Vec F S1x16 .f32) (xs0 : Vec F S1x1 .f32) (xs1 : Vec F S1x1 .f32) (xs2 : Vec F S1x1 .f32) :
    sout0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay3 (k0_pay8 x1 x0 x3 x4 x5) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero (S := S1x1) hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

/-- At a last tile the variance total carried from the tile before takes the tile's rows. -/
theorem last_0 (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1024x1020 .f32) (x1 : Vec F S1024x255 .f32) (x2 : Vec F S1024x16 .f32) (x3 : Vec F S255x1020 .bf16) (x4 : Vec F S1020x16 .bf16) (x5 : Vec F S1x16 .f32) (xs0 : Vec F S1x1 .f32) (xs1 : Vec F S1x1 .f32) (xs2 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay1 (k0_pay9 x1 x0 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero (S := S1x1) hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

/-- At a last tile the product-sum total carried from the tile before takes the tile's rows. -/
theorem last_1 (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1024x1020 .f32) (x1 : Vec F S1024x255 .f32) (x2 : Vec F S1024x16 .f32) (x3 : Vec F S255x1020 .bf16) (x4 : Vec F S1020x16 .bf16) (x5 : Vec F S1x16 .f32) (xs0 : Vec F S1x1 .f32) (xs1 : Vec F S1x1 .f32) (xs2 : Vec F S1x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay2 (k0_pay10 x1 x0 x3 x4 x2 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero (S := S1x1) hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

/-- At a last tile the maximum total carried from the tile before takes the tile's rows. -/
theorem last_2 (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1024x1020 .f32) (x1 : Vec F S1024x255 .f32) (x2 : Vec F S1024x16 .f32) (x3 : Vec F S255x1020 .bf16) (x4 : Vec F S1020x16 .bf16) (x5 : Vec F S1x16 .f32) (xs0 : Vec F S1x1 .f32) (xs1 : Vec F S1x1 .f32) (xs2 : Vec F S1x1 .f32) :
    sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay3 (k0_pay8 x1 x0 x3 x4 x5) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero (S := S1x1) hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

/-- At a core's last tile the output block is the combination of the three totals just updated, in every element. -/
theorem last_out (c : Dev nD) (i : grid0.Coords) (arg2 : Memref sig .tc .vmem S1024x1020 .f32) (harg2 : arg2.IsWhole) (arg3 : Memref sig .tc .vmem S1024x255 .f32) (harg3 : arg3.IsWhole) (arg4 : Memref sig .tc .vmem S1024x16 .f32) (harg4 : arg4.IsWhole) (arg5 : Memref sig .tc .vmem S255x1020 .bf16) (harg5 : arg5.IsWhole) (arg6 : Memref sig .tc .vmem S1020x16 .bf16) (harg6 : arg6.IsWhole) (arg7 : Memref sig .tc .vmem S1x16 .f32) (harg7 : arg7.IsWhole) (arg8 : Memref sig .tc .vmem S8x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S1024x1020 .f32) (x1 : Vec F S1024x255 .f32) (x2 : Vec F S1024x16 .f32) (x3 : Vec F S255x1020 .bf16) (x4 : Vec F S1020x16 .bf16) (x5 : Vec F S1x16 .f32) (xs0 : Vec F S1x1 .f32) (xs1 : Vec F S1x1 .f32) (xs2 : Vec F S1x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay4 (k0_pay1 (k0_pay9 x1 x0 x3 x4 x5) xs0) (k0_pay2 (k0_pay10 x1 x0 x3 x4 x2 x5) xs1) (k0_pay3 (k0_pay8 x1 x0 x3 x4 x5) xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero (S := S8x128) hz, View.readCov_unit_zero (S := S1x1) _ hz, View.readCov_unit_zero (S := S1x1) _ hz, View.readCov_unit_zero (S := S1x1) _ hz]
  simp only [View.readAt_eq_ld, harg2.read_unread, harg3.read_unread, harg4.read_unread, harg5.read_unread, harg6.read_unread, harg7.read_unread, harg9.read_unread, harg10.read_unread, harg11.read_unread, View.ld_unit_zero (S := S1024x1020) hz, View.ld_unit_zero (S := S1024x255) hz, View.ld_unit_zero (S := S1024x16) hz, View.ld_unit_zero (S := S255x1020) hz, View.ld_unit_zero (S := S1020x16) hz, View.ld_unit_zero (S := S1x16) hz, View.ld_unit_zero (S := S1x1) hz]

end Cert.KernelIdeal.Pieces

end
-- ==== Proof.Tile.lean ====
/-
  One grid point of the kernel, read entry by entry on the extended reals.

  A grid point holds six blocks: 1024 rows of the ratios p (1024 × 1020), of the demands q (1024 × 255) and of the
  current utilisations (1024 × 16); a 255 × 1020 matrix E and a 1020 × 16 matrix O; and one row of sixteen capacities.
  The body forms the tile
      U(r, l) = (∑ t, (p(r, t) * ∑ d, q(r, d) * E(d, t)) * O(t, l)) / (capacity(l) + eps),
  then for each row r the unbiased variance of U(r, ·) over the sixteen lanes and the product-sum of U(r, ·) with the
  current utilisations of that row. Three 1 × 1 accumulators each gain the sum over the 1024 rows of one per-row number
  (the variance, the product-sum, the largest of U(r, ·)); what is written out is the sum of the three accumulators,
  each divided by 16384 and weighted 0.3, 0.5, 0.2, at every index of an 8 × 128 block.

  When E(d, t) is 1 exactly for d = t / 4 and O(t, l) is 1 exactly when tunnel t leaves on link l, the inner sum over d
  keeps the one term q(r, t / 4), and when moreover the row blocks are rows of tile k of the whole arrays, U(r, l) is the
  utilisation of link l by batch row `tileRow k r`; the per-row numbers are then that row's `rowVar` and `rowCong`.

  Every statement is over variable blocks and coordinates of literal range. Four facts carry it: rounding to bf16 is the
  identity on the extended reals; a reduction along one axis is the finite sum (or the fold of `max`) over that axis's
  coordinates; a matrix product into a zero accumulator is the sum of products over the contracted coordinate; and the
  changes of shape ([1024] → [1024, 1] → [1024, 16], [1, 16] → [1024, 16], [1] → [1, 1] → [8, 128]) only rename an index.
  No literal is evaluated except the zero word.
-/
import proofs.«101567_j5549097747152_2_alg».proof.Proof.Gen.KernelIdeal.Skeleton
import proofs.«101567_j5549097747152_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Cert.Spec Idealize.ShloMosaic Idealize.ShloMosaic.ValueIdx

/-! ## Reductions along one axis, and the changes of shape around them -/

/-- The sum along the sixteen lanes of a 1024 × 16 block, read at row `r`, is the sum of that row's entries. -/
theorem laneSum_apply (x : FVec Ideal S1024x16 .f32) (h : S1024x16.Reduces [1] S1024) (hφ : FKind.Formats .f32)
    (hacc : (0x00000000#32 : BitVec 32) = 0x00000000#32) (r : Fin 1024) :
    multiReduction (F := Ideal) .add [1] S1024 x 0x00000000#32 h hφ hacc (ix1 r) = ∑ l : Fin 16, x (ix2 r l) :=
  (Ideal.multiReduction_add_single x 0x00000000#32 h hφ hacc (ix1 r)).trans
    (Finset.sum_congr rfl fun l _ => congrArg x (funext fun a => Fin.ext (match a with | ⟨0, _⟩ => rfl | ⟨1, _⟩ => rfl)))

/-- The maximum along the lanes, started from minus infinity, read at row `r`, is the largest of that row's entries. -/
theorem rowMax_apply (x : FVec Ideal S1024x16 .f32) (h : S1024x16.Reduces [1] S1024) (hφ : FKind.Formats .f32)
    (hacc : (0xFF800000#32 : BitVec 32) = 0xFF800000#32) (r : Fin 1024) :
    multiReduction (F := Ideal) .maximumf [1] S1024 x 0xFF800000#32 h hφ hacc (ix1 r) = top (fun l => x (ix2 r l)) :=
  (Ideal.multiReduction_maximumf_single x 0xFF800000#32 h hφ hacc (ix1 r)).trans
    (congrArg (fun f => (Finset.univ : Finset (Fin 16)).fold max negInf f)
      (funext fun l => congrArg x (funext fun a => Fin.ext (match a with | ⟨0, _⟩ => rfl | ⟨1, _⟩ => rfl))))

/-- A vector of length 1024 viewed as a 1024 × 1 column reads, at `(r, c)`, the vector at `r`. -/
theorem colCast_apply {α : Type} (v : S1024.Idx → α) (h : S1024.ShapeCasts S1024x1) (r : Fin 1024) (c : Fin 1) :
    shapeCast S1024x1 v h (ix2 r c) = v (ix1 r) :=
  shapeCast_apply v h _ _ (by
    have hc : c.val = 0 := by omega
    rw [Shape.rowMajor_val_one, Shape.rowMajor_val_two]
    show r.val = r.val * 1 + c.val
    rw [hc, Nat.mul_one, Nat.add_zero])

/-- A 1024 × 1 column spread over the sixteen lanes reads, at `(r, l)`, the column at `r`. -/
theorem colBroadcast_apply {α : Type} (v : S1024x1.Idx → α) (h : S1024x1.Broadcasts S1024x16) (r : Fin 1024) (l : Fin 16) :
    broadcastTo S1024x16 v h (ix2 r l) = v (ix2 r 0) := by
  refine broadcastTo_apply v h (ix2 r l) (ix2 r 0) fun ax => ?_
  match ax with
  | ⟨0, _⟩ => rfl
  | ⟨1, _⟩ => rfl

/-- A 1 × 1 value spread over an 8 × 128 block reads that value at every index. -/
theorem unitBroadcast_apply {α : Type} (v : S1x1.Idx → α) (h : S1x1.Broadcasts S8x128) (j : S8x128.Idx) :
    broadcastTo S8x128 v h j = v (ix2 0 0) := by
  refine broadcastTo_apply v h j (ix2 0 0) fun ax => ?_
  match ax with
  | ⟨0, _⟩ => rfl
  | ⟨1, _⟩ => rfl

/-- The sum over the 1024 rows of a 1024 × 1 column, kept as a 1 × 1 value: at its one index, the sum of the column. -/
theorem colSum_apply (x : FVec Ideal S1024x1 .f32) (h : S1024x1.Reduces [0] S1) (hc : S1.ShapeCasts S1x1) (hφ : FKind.Formats .f32)
    (hacc : (0x00000000#32 : BitVec 32) = 0x00000000#32) (j : S1x1.Idx) :
    shapeCast S1x1 (multiReduction (F := Ideal) .add [0] S1 x 0x00000000#32 h hφ hacc) hc j = ∑ r : Fin 1024, x (ix2 r 0) := by
  obtain ⟨u, i, rfl⟩ : ∃ (u : Fin 1) (i : Fin 1), j = ix2 u i := ⟨j 0, j 1, eq_ix2 j⟩
  refine (shapeCast_a_1a_apply _ hc u i).trans ?_
  refine (Ideal.multiReduction_add_single x 0x00000000#32 h hφ hacc (ix1 i)).trans ?_
  refine Finset.sum_congr rfl fun r _ => congrArg x (funext fun a => Fin.ext ?_)
  match a with
  | ⟨0, _⟩ => rfl
  | ⟨1, _⟩ =>
    show i.val = 0
    omega

/-! ## The two matrix products

Both contract one axis: the first is (1024 × 255) · (255 × 1020), the second (1024 × 1020) · (1020 × 16). Read at an
output index `(r, c)` with the contraction position `q`, the left operand's index is `(r, q)` and the right one's `(q, c)`. -/

theorem lhsRep_0 (i : S1024x1020.Idx) (q : dot_S1024x255_S255x1020_S1024x1020_1_0_0_1_n_n.contr.Idx) :
    (dot_S1024x255_S255x1020_S1024x1020_1_0_0_1_n_n.lhsIdx i q 0).val = (i 0).val := by
  unfold DotDims.lhsIdx
  rw [dif_neg (show ¬(0 : Fin S1024x255.rank) ∈ dot_S1024x255_S255x1020_S1024x1020_1_0_0_1_n_n.lhsBatch by decide),
    dif_pos (show (0 : Fin S1024x255.rank) ∈ dot_S1024x255_S255x1020_S1024x1020_1_0_0_1_n_n.lhsNonContracting by decide)]
  rfl
theorem lhsRep_1 (i : S1024x1020.Idx) (q : dot_S1024x255_S255x1020_S1024x1020_1_0_0_1_n_n.contr.Idx) :
    (dot_S1024x255_S255x1020_S1024x1020_1_0_0_1_n_n.lhsIdx i q 1).val = (q ⟨0, by decide⟩).val :=
  dot_S1024x255_S255x1020_S1024x1020_1_0_0_1_n_n.lhsIdx_val_of_single rfl i q
theorem rhsRep_0 (i : S1024x1020.Idx) (q : dot_S1024x255_S255x1020_S1024x1020_1_0_0_1_n_n.contr.Idx) :
    (dot_S1024x255_S255x1020_S1024x1020_1_0_0_1_n_n.rhsIdx i q 0).val = (q ⟨0, by decide⟩).val :=
  dot_S1024x255_S255x1020_S1024x1020_1_0_0_1_n_n.rhsIdx_val_of_single rfl i q
theorem rhsRep_1 (i : S1024x1020.Idx) (q : dot_S1024x255_S255x1020_S1024x1020_1_0_0_1_n_n.contr.Idx) :
    (dot_S1024x255_S255x1020_S1024x1020_1_0_0_1_n_n.rhsIdx i q 1).val = (i 1).val := by
  unfold DotDims.rhsIdx
  rw [dif_neg (show ¬(1 : Fin S255x1020.rank) ∈ dot_S1024x255_S255x1020_S1024x1020_1_0_0_1_n_n.rhsBatch by decide),
    dif_pos (show (1 : Fin S255x1020.rank) ∈ dot_S1024x255_S255x1020_S1024x1020_1_0_0_1_n_n.rhsNonContracting by decide)]
  rfl

/-- The first product into a zero accumulator, at `(r, t)`: the sum over the 255 destinations `d` of `a (r, d) * b (d, t)`. -/
theorem repeat_apply (a : FVec Ideal S1024x255 .bf16) (b : FVec Ideal S255x1020 .bf16) (r : Fin 1024) (t : Fin 1020) :
    matmul dot_S1024x255_S255x1020_S1024x1020_1_0_0_1_n_n none a b (constant S1024x1020 .f32 0x00000000#32) (ix2 r t)
      = ∑ d : Fin 255, a (ix2 r d) * b (ix2 d t) := by
  refine (Ideal.matmul_constant_zero_apply dot_S1024x255_S255x1020_S1024x1020_1_0_0_1_n_n none a b (ix2 r t)).trans ?_
  rw [← Equiv.sum_comp (contrEquiv1 dot_S1024x255_S255x1020_S1024x1020_1_0_0_1_n_n 255 rfl rfl).symm]
  refine Finset.sum_congr rfl fun d _ => ?_
  have hd := contrEquiv1_symm_val dot_S1024x255_S255x1020_S1024x1020_1_0_0_1_n_n 255 rfl rfl d
  have el : dot_S1024x255_S255x1020_S1024x1020_1_0_0_1_n_n.lhsIdx (ix2 r t)
      ((contrEquiv1 dot_S1024x255_S255x1020_S1024x1020_1_0_0_1_n_n 255 rfl rfl).symm d) = ix2 r d := funext fun ax => Fin.ext (by
    match ax with
    | ⟨0, _⟩ => exact lhsRep_0 _ _
    | ⟨1, _⟩ => exact (lhsRep_1 _ _).trans hd)
  have er : dot_S1024x255_S255x1020_S1024x1020_1_0_0_1_n_n.rhsIdx (ix2 r t)
      ((contrEquiv1 dot_S1024x255_S255x1020_S1024x1020_1_0_0_1_n_n 255 rfl rfl).symm d) = ix2 d t := funext fun ax => Fin.ext (by
    match ax with
    | ⟨0, _⟩ => exact (rhsRep_0 _ _).trans hd
    | ⟨1, _⟩ => exact rhsRep_1 _ _)
  rw [el, er]

theorem lhsSct_0 (i : S1024x16.Idx) (q : dot_S1024x1020_S1020x16_S1024x16_1_0_0_1_n_n.contr.Idx) :
    (dot_S1024x1020_S1020x16_S1024x16_1_0_0_1_n_n.lhsIdx i q 0).val = (i 0).val := by
  unfold DotDims.lhsIdx
  rw [dif_neg (show ¬(0 : Fin S1024x1020.rank) ∈ dot_S1024x1020_S1020x16_S1024x16_1_0_0_1_n_n.lhsBatch by decide),
    dif_pos (show (0 : Fin S1024x1020.rank) ∈ dot_S1024x1020_S1020x16_S1024x16_1_0_0_1_n_n.lhsNonContracting by decide)]
  rfl
theorem lhsSct_1 (i : S1024x16.Idx) (q : dot_S1024x1020_S1020x16_S1024x16_1_0_0_1_n_n.contr.Idx) :
    (dot_S1024x1020_S1020x16_S1024x16_1_0_0_1_n_n.lhsIdx i q 1).val = (q ⟨0, by decide⟩).val :=
  dot_S1024x1020_S1020x16_S1024x16_1_0_0_1_n_n.lhsIdx_val_of_single rfl i q
theorem rhsSct_0 (i : S1024x16.Idx) (q : dot_S1024x1020_S1020x16_S1024x16_1_0_0_1_n_n.contr.Idx) :
    (dot_S1024x1020_S1020x16_S1024x16_1_0_0_1_n_n.rhsIdx i q 0).val = (q ⟨0, by decide⟩).val :=
  dot_S1024x1020_S1020x16_S1024x16_1_0_0_1_n_n.rhsIdx_val_of_single rfl i q
theorem rhsSct_1 (i : S1024x16.Idx) (q : dot_S1024x1020_S1020x16_S1024x16_1_0_0_1_n_n.contr.Idx) :
    (dot_S1024x1020_S1020x16_S1024x16_1_0_0_1_n_n.rhsIdx i q 1).val = (i 1).val := by
  unfold DotDims.rhsIdx
  rw [dif_neg (show ¬(1 : Fin S1020x16.rank) ∈ dot_S1024x1020_S1020x16_S1024x16_1_0_0_1_n_n.rhsBatch by decide),
    dif_pos (show (1 : Fin S1020x16.rank) ∈ dot_S1024x1020_S1020x16_S1024x16_1_0_0_1_n_n.rhsNonContracting by decide)]
  rfl

/-- The second product into a zero accumulator, at `(r, l)`: the sum over the 1020 tunnels `t` of `a (r, t) * b (t, l)`. -/
theorem scatter_apply (a : FVec Ideal S1024x1020 .bf16) (b : FVec Ideal S1020x16 .bf16) (r : Fin 1024) (l : Fin 16) :
    matmul dot_S1024x1020_S1020x16_S1024x16_1_0_0_1_n_n none a b (constant S1024x16 .f32 0x00000000#32) (ix2 r l)
      = ∑ t : Fin 1020, a (ix2 r t) * b (ix2 t l) := by
  refine (Ideal.matmul_constant_zero_apply dot_S1024x1020_S1020x16_S1024x16_1_0_0_1_n_n none a b (ix2 r l)).trans ?_
  rw [← Equiv.sum_comp (contrEquiv1 dot_S1024x1020_S1020x16_S1024x16_1_0_0_1_n_n 1020 rfl rfl).symm]
  refine Finset.sum_congr rfl fun t _ => ?_
  have ht := contrEquiv1_symm_val dot_S1024x1020_S1020x16_S1024x16_1_0_0_1_n_n 1020 rfl rfl t
  have el : dot_S1024x1020_S1020x16_S1024x16_1_0_0_1_n_n.lhsIdx (ix2 r l)
      ((contrEquiv1 dot_S1024x1020_S1020x16_S1024x16_1_0_0_1_n_n 1020 rfl rfl).symm t) = ix2 r t := funext fun ax => Fin.ext (by
    match ax with
    | ⟨0, _⟩ => exact lhsSct_0 _ _
    | ⟨1, _⟩ => exact (lhsSct_1 _ _).trans ht)
  have er : dot_S1024x1020_S1020x16_S1024x16_1_0_0_1_n_n.rhsIdx (ix2 r l)
      ((contrEquiv1 dot_S1024x1020_S1020x16_S1024x16_1_0_0_1_n_n 1020 rfl rfl).symm t) = ix2 t l := funext fun ax => Fin.ext (by
    match ax with
    | ⟨0, _⟩ => exact (rhsSct_0 _ _).trans ht
    | ⟨1, _⟩ => exact rhsSct_1 _ _)
  rw [el, er]

/-! ## The utilisation tile -/

/-- The utilisation tile at `(r, l)` over arbitrary blocks: the product-sum over the tunnels `t` of the ratio at `(r, t)`, the
    demands row `r` against column `t` of the repeat block, and the scatter block at `(t, l)`, divided by the capacity block at `l` plus eps.
    (Rounding to bf16 is the identity on the extended reals.) -/
theorem pay8_apply (xd : Vec Ideal S1024x255 .f32) (xp : Vec Ideal S1024x1020 .f32) (xe : Vec Ideal S255x1020 .bf16)
    (xo : Vec Ideal S1020x16 .bf16) (xk : Vec Ideal S1x16 .f32) (r : Fin 1024) (l : Fin 16) :
    Gen.k0_pay8 (F := Ideal) xd xp xe xo xk (ix2 r l)
      = Ideal.div (∑ t : Fin 1020, (xp (ix2 r t) * ∑ d : Fin 255, xd (ix2 r d) * xe (ix2 d t)) * xo (ix2 t l))
          (xk (ix2 0 l) + eps) := by
  unfold Gen.k0_pay8
  refine congr (congrArg Ideal.div ?_) ?_
  · refine (scatter_apply _ _ r l).trans (Finset.sum_congr rfl fun t _ => ?_)
    refine congr (congrArg HMul.hMul ?_) (congrFun (shapeCast_self xo _) (ix2 t l))
    refine congrArg (xp (ix2 r t) * ·) ((repeat_apply _ _ r t).trans (Finset.sum_congr rfl fun d _ => ?_))
    exact congrArg (xd (ix2 r d) * ·) (congrFun (shapeCast_self xe _) (ix2 d t))
  · refine (broadcastTo_1b_ab_apply _ _ r l).trans ?_
    exact congrArg (· + eps) (congrFun (shapeCast_self xk _) (ix2 0 l))

/-- Against a 0/1 column that is 1 exactly at the destination of tunnel `t`, a sum over the 255 destinations keeps that one term
    (`x * 0 = 0` and `x * 1 = x` for every extended real). -/
theorem sum_pick_dst (f g : Fin 255 → EReal) (t : Fin 1020) (hg : ∀ d, g d = if dst t = d then 1 else 0) :
    ∑ d : Fin 255, f d * g d = f (dst t) := by
  rw [Finset.sum_eq_single (dst t)]
  · rw [hg, if_pos rfl, mul_one]
  · intro d _ hd
    rw [hg, if_neg (Ne.symm hd), mul_zero]
  · intro hn
    exact absurd (Finset.mem_univ _) hn

/-- The six input blocks of one grid point are tile `k` of the arrays, the 0/1 repeat matrix, the 0/1 scatter matrix and the capacities. -/
structure IsTile (pr : Mat 16384 1020) (dm : Mat 16384 255) (clu : Mat 16384 16) (cap : Vect 16) (tl : Words 1020) (k : ℕ)
    (xp : Vec Ideal S1024x1020 .f32) (xd : Vec Ideal S1024x255 .f32) (xc : Vec Ideal S1024x16 .f32)
    (xe : Vec Ideal S255x1020 .bf16) (xo : Vec Ideal S1020x16 .bf16) (xk : Vec Ideal S1x16 .f32) : Prop where
  hp : ∀ (r : Fin 1024) (t : Fin 1020), xp (ix2 r t) = pr (ix2 (tileRow k r) t)
  hd : ∀ (r : Fin 1024) (d : Fin 255), xd (ix2 r d) = dm (ix2 (tileRow k r) d)
  hc : ∀ (r : Fin 1024) (l : Fin 16), xc (ix2 r l) = clu (ix2 (tileRow k r) l)
  he : ∀ (d : Fin 255) (t : Fin 1020), xe (ix2 d t) = if dst t = d then 1 else 0
  ho : ∀ (t : Fin 1020) (l : Fin 16), xo (ix2 t l) = hot tl t l
  hk : ∀ (l : Fin 16), xk (ix2 0 l) = cap (ix1 l)

section tile
variable {pr : Mat 16384 1020} {dm : Mat 16384 255} {clu : Mat 16384 16} {cap : Vect 16} {tl : Words 1020} {k : ℕ}
  {xp : Vec Ideal S1024x1020 .f32} {xd : Vec Ideal S1024x255 .f32} {xc : Vec Ideal S1024x16 .f32}
  {xe : Vec Ideal S255x1020 .bf16} {xo : Vec Ideal S1020x16 .bf16} {xk : Vec Ideal S1x16 .f32}

/-- On tile `k` the utilisation tile at `(r, l)` is the utilisation of link `l` by batch row `tileRow k r`: the repeat block
    turns the inner sum into the demand of the tunnel's destination, the scatter block is the link indicator. -/
theorem util_apply (h : IsTile pr dm clu cap tl k xp xd xc xe xo xk) (r : Fin 1024) (l : Fin 16) :
    Gen.k0_pay8 (F := Ideal) xd xp xe xo xk (ix2 r l) = util pr dm cap tl (tileRow k r) l := by
  refine (pay8_apply xd xp xe xo xk r l).trans ?_
  unfold util
  refine congr (congrArg Ideal.div (Finset.sum_congr rfl fun t _ => ?_)) (congrArg (· + eps) (h.hk l))
  refine congr (congrArg HMul.hMul (congr (congrArg HMul.hMul (h.hp r t)) ?_)) (h.ho t l)
  exact (sum_pick_dst (fun d => xd (ix2 r d)) (fun d => xe (ix2 d t)) t fun d => h.he d t).trans (h.hd r (dst t))

/-- The variance payload at `(r, 0)` over arbitrary blocks: the unbiased variance of row `r` of the utilisation tile. -/
theorem pay9_apply (xd : Vec Ideal S1024x255 .f32) (xp : Vec Ideal S1024x1020 .f32) (xe : Vec Ideal S255x1020 .bf16)
    (xo : Vec Ideal S1020x16 .bf16) (xk : Vec Ideal S1x16 .f32) (r : Fin 1024) :
    Gen.k0_pay9 (F := Ideal) xd xp xe xo xk (ix2 r 0)
      = var (fun l => Gen.k0_pay8 (F := Ideal) xd xp xe xo xk (ix2 r l)) := by
  unfold Gen.k0_pay9
  generalize Gen.k0_pay8 (F := Ideal) xd xp xe xo xk = u
  refine congrArg (Ideal.div · c15) ?_
  refine (colCast_apply _ _ r 0).trans ((laneSum_apply _ _ _ _ r).trans (Finset.sum_congr rfl fun l _ => ?_))
  refine congrArg (fun m => (u (ix2 r l) - m) * (u (ix2 r l) - m)) ?_
  refine (colBroadcast_apply _ _ r l).trans (congrArg (Ideal.div · c16) ?_)
  exact (colCast_apply _ _ r 0).trans (laneSum_apply u _ _ _ r)

theorem var_apply (h : IsTile pr dm clu cap tl k xp xd xc xe xo xk) (r : Fin 1024) :
    Gen.k0_pay9 (F := Ideal) xd xp xe xo xk (ix2 r 0) = rowVar pr dm cap tl (tileRow k r) := by
  refine (pay9_apply xd xp xe xo xk r).trans ?_
  unfold rowVar
  exact congrArg var (funext fun l => util_apply h r l)

theorem cong_apply (h : IsTile pr dm clu cap tl k xp xd xc xe xo xk) (r : Fin 1024) :
    Gen.k0_pay10 (F := Ideal) xd xp xe xo xc xk (ix2 r 0) = rowCong pr dm clu cap tl (tileRow k r) := by
  unfold Gen.k0_pay10
  refine (colCast_apply _ _ r 0).trans ((laneSum_apply _ _ _ _ r).trans ?_)
  unfold rowCong cong
  exact Finset.sum_congr rfl fun l _ => congr (congrArg HMul.hMul (util_apply h r l)) (h.hc r l)

end tile

/-! ## The accumulators -/

theorem accVar_apply (v31 : FVec Ideal S1024x1 .f32) (v37 : Vec Ideal S1x1 .f32) (j : S1x1.Idx) :
    Gen.k0_pay1 (F := Ideal) v31 v37 j = v37 j + ∑ r : Fin 1024, v31 (ix2 r 0) := by
  unfold Gen.k0_pay1
  refine (congrFun (shapeCast_self _ _) j).trans ?_
  exact congrArg (v37 j + ·) (colSum_apply v31 _ _ _ _ j)

theorem accCong_apply (v34 : FVec Ideal S1024x1 .f32) (v44 : Vec Ideal S1x1 .f32) (j : S1x1.Idx) :
    Gen.k0_pay2 (F := Ideal) v34 v44 j = v44 j + ∑ r : Fin 1024, v34 (ix2 r 0) := by
  unfold Gen.k0_pay2
  refine (congrFun (shapeCast_self _ _) j).trans ?_
  exact congrArg (v44 j + ·) (colSum_apply v34 _ _ _ _ j)

theorem accTop_apply (v20 : FVec Ideal S1024x16 .f32) (v51 : Vec Ideal S1x1 .f32) (j : S1x1.Idx) :
    Gen.k0_pay3 (F := Ideal) v20 v51 j = v51 j + ∑ r : Fin 1024, top (fun l => v20 (ix2 r l)) := by
  unfold Gen.k0_pay3
  refine (congrFun (shapeCast_self _ _) j).trans ?_
  refine congrArg (v51 j + ·) ((colSum_apply _ _ _ _ _ j).trans (Finset.sum_congr rfl fun r _ => ?_))
  exact (colCast_apply _ _ r 0).trans (rowMax_apply v20 _ _ _ r)

theorem out_apply (v61 v64 v67 : Vec Ideal S1x1 .f32) (j : S8x128.Idx) :
    Gen.k0_pay4 (F := Ideal) v61 v64 v67 j = combine (v61 (ix2 0 0)) (v64 (ix2 0 0)) (v67 (ix2 0 0)) := by
  unfold Gen.k0_pay4
  refine (unitBroadcast_apply _ _ j).trans ?_
  refine (congrFun (shapeCast_self _ _) (ix2 0 0)).trans ?_
  rfl

theorem zero5 (j : S1x1.Idx) : Gen.k0_pay5 (F := Ideal) j = 0 := by
  unfold Gen.k0_pay5
  refine (congrFun (shapeCast_self _ _) j).trans ?_
  exact Ideal.ofBits_zero_f32

theorem zero6 (j : S1x1.Idx) : Gen.k0_pay6 (F := Ideal) j = 0 := by
  unfold Gen.k0_pay6
  refine (congrFun (shapeCast_self _ _) j).trans ?_
  exact Ideal.ofBits_zero_f32

theorem zero7 (j : S1x1.Idx) : Gen.k0_pay7 (F := Ideal) j = 0 := by
  unfold Gen.k0_pay7
  refine (congrFun (shapeCast_self _ _) j).trans ?_
  exact Ideal.ofBits_zero_f32

end Cert.KernelIdeal.Tile

end
-- ==== Proof.HostPrefix.lean ====
/-
  What the kernel's three host-built operands hold when the region is entered, entry by entry.

  The repeat matrix E (255 × 1020) has E(d, t) = 1 where tunnel t serves destination d, that is where t / 4 = d, and 0
  elsewhere: the program compares, as 32-bit words, the floor division of the tunnel number by four with the destination
  number, and converts the equality bit to a number. The floor division is spelt through the signed division rounded
  toward zero with a correction of one where the signs differ and the remainder is not zero; on the words of 0 … 1019
  and the divisor 4 both operands are non-negative, the correction never applies, and the result is the word of t / 4.
  Two words of numbers below 2^32 are equal exactly when the numbers are.

  The one-hot matrix O (1020 × 16) has O(t, l) = 1 where tunnel t's link word is the word of l, else 0; and the row of
  capacities (1 × 16) is the capacity vector under another shape.
-/
import proofs.«101567_j5549097747152_2_alg».proof.Proof.Gen.KernelIdeal.Frame
import proofs.«101567_j5549097747152_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

noncomputable section

namespace Cert.KernelIdeal.HostPrefix

open Idealize.ShloMosaic Idealize.ShloMosaic.ValueIdx Idealize.SL.Sem
open Cert.KernelIdeal.Facts₀

/-! ## Words: the floor division of a small word by four -/

/-- The sign of a 32-bit word, as a word: 0, -1 or 1. -/
def sgn (a : BitVec 32) : BitVec 32 := if a = 0 then 0 else if a.msb then -1 else 1

/-- Signed division rounded down, on words, as the program spells it: the quotient rounded toward zero, less one where
    the operands' signs differ and the remainder is not zero. -/
def floorWord (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- A tunnel number is below 2^32: its word reads back as itself. -/
theorem toNat_word (t : Fin 1020) : (BitVec.ofNat 32 t.val).toNat = t.val := by
  rw [BitVec.toNat_ofNat]; exact Nat.mod_eq_of_lt (by have := t.isLt; omega)

/-- It is below 2^31: its word is not negative. -/
theorem msb_word (t : Fin 1020) : (BitVec.ofNat 32 t.val).msb = false := by
  rw [BitVec.msb_eq_false_iff_two_mul_lt, toNat_word]; have := t.isLt; omega

theorem msb_four : (4#32 : BitVec 32).msb = false := by decide

/-- Dividing by four is never at the division's corner (a zero divisor, or the least word by -1). -/
theorem not_corner (x : BitVec 32) : ¬ IntOp.SDivCorner x 4#32 :=
  fun h => h.elim (by decide) (fun h => absurd h.2 (by decide))

/-- The signed quotient of a tunnel number's word by four is the word of the natural quotient: both operands are
    non-negative, so the signed division is the unsigned one. -/
theorem quot_word (t : Fin 1020) : IntOp.divsi .host (BitVec.ofNat 32 t.val) 4#32 = BitVec.ofNat 32 (t.val / 4) := by
  unfold IntOp.divsi
  rw [if_neg (not_corner _), BitVec.sdiv_eq, msb_word, msb_four]
  apply BitVec.eq_of_toNat_eq
  show (BitVec.ofNat 32 t.val / 4#32).toNat = _
  rw [BitVec.toNat_udiv, toNat_word, BitVec.toNat_ofNat]
  have := t.isLt
  show t.val / 4 = (t.val / 4) % 2 ^ 32
  omega

/-- Likewise the signed remainder is the word of the natural remainder. -/
theorem rem_word (t : Fin 1020) : IntOp.remsi .host (BitVec.ofNat 32 t.val) 4#32 = BitVec.ofNat 32 (t.val % 4) := by
  unfold IntOp.remsi
  rw [if_neg (not_corner _), BitVec.srem_eq, msb_word, msb_four]
  apply BitVec.eq_of_toNat_eq
  show (BitVec.ofNat 32 t.val % 4#32).toNat = _
  rw [BitVec.toNat_umod, toNat_word, BitVec.toNat_ofNat]
  have := t.isLt
  show t.val % 4 = (t.val % 4) % 2 ^ 32
  omega

/-- The floor division of a tunnel number's word by four is the word of t / 4: the correction never applies, since for
    t = 0 the remainder is zero and for t > 0 the two signs are both 1. -/
theorem floorWord_four (t : Fin 1020) : floorWord (BitVec.ofNat 32 t.val) 4#32 = BitVec.ofNat 32 (t.val / 4) := by
  unfold floorWord
  rw [quot_word]
  by_cases h0 : t.val = 0
  · rw [rem_word, h0]
    decide
  · have hs : sgn (BitVec.ofNat 32 t.val) = sgn 4#32 := by
      have hne : BitVec.ofNat 32 t.val ≠ 0 := fun h => h0 (by rw [← toNat_word t, h]; rfl)
      unfold sgn
      rw [if_neg hne, msb_word]
      decide
    rw [hs]
    have hc : IntOp.cmpi .ne (sgn 4#32) (sgn 4#32) = 0#1 := by decide
    rw [hc]
    have ha (b : BitVec 1) : IntOp.andi 0#1 b = 0#1 := by unfold IntOp.andi; exact BitVec.zero_and
    rw [ha]
    exact select_zero _ _

/-- Two such words are equal exactly when tunnel t serves destination d. -/
theorem word_eq_iff (t : Fin 1020) (d : Fin 255) :
    BitVec.ofNat 32 (t.val / 4) = BitVec.ofNat 32 d.val ↔ Cert.Spec.dst t = d := by
  constructor
  · intro h
    have h' := congrArg BitVec.toNat h
    rw [BitVec.toNat_ofNat, BitVec.toNat_ofNat] at h'
    refine Fin.ext ?_
    show t.val / 4 = d.val
    have := t.isLt; have := d.isLt
    omega
  · intro h; rw [← h]; rfl

/-- The equality bit of two words, converted to a number, is 1 where they are equal and 0 elsewhere. -/
theorem bit_toReal (a b : BitVec 32) : (((IntOp.cmpi .eq a b).toNat : ℝ) : EReal) = if a = b then 1 else 0 := by
  unfold IntOp.cmpi
  by_cases h : a = b
  · rw [if_pos h, show (a == b) = true from beq_iff_eq.mpr h]
    show (((1 : ℕ) : ℝ) : EReal) = 1
    rw [Nat.cast_one, EReal.coe_one]
  · rw [if_neg h, show (a == b) = false from beq_eq_false_iff_ne.mpr h]
    show (((0 : ℕ) : ℝ) : EReal) = 0
    rw [Nat.cast_zero, EReal.coe_zero]

/-! ## The three operands as composed terms -/

/-- Floor division of a row of 1020 words by one word, operation by operation as the program spells it: the quotient
    rounded toward zero, less one where the operands' signs differ and the remainder is not zero. -/
def floorDivRow (x : IVec S1x1020 32) (y : IVec S_ 32) : IVec S1x1020 32 :=
  select
    (andi (cmpi .ne (signi x) (broadcastInDim S1x1020 ![] bcast_S_S1x1020 (signi y)))
      (cmpi .ne (Host.remsi x (broadcastInDim S1x1020 ![] bcast_S_S1x1020 y))
        (broadcastInDim S1x1020 ![] bcast_S_S1x1020 (constantI S_ 32 0#32))))
    (subi (Host.divsi x (broadcastInDim S1x1020 ![] bcast_S_S1x1020 y))
      (broadcastInDim S1x1020 ![] bcast_S_S1x1020 (constantI S_ 32 1#32)))
    (Host.divsi x (broadcastInDim S1x1020 ![] bcast_S_S1x1020 y))

/-- The tunnel numbers 0 … 1019 as one row. -/
def tunnelRow : IVec S1x1020 32 := broadcastInDim S1x1020 ![1] bcast_S1020_S1x1020_1 (iotaInDim S1020 32 0)

/-- The destination numbers 0 … 254 as one column. -/
def destCol : IVec S255x1 32 := broadcastInDim S255x1 ![0] bcast_S255_S255x1_0 (iotaInDim S255 32 0)

/-- The repeat matrix: entry (d, t) is the bit "tunnel t divided by 4, rounded down, is d", as a number. -/
def expandTerm : FVec Ideal S255x1020 .bf16 :=
  uitofp .bf16
    (cmpi .eq (broadcastInDim S255x1020 ![0, 1] bcast_S1x1020_S255x1020_0_1 (floorDivRow tunnelRow (constantI S_ 32 4#32)))
      (broadcastInDim S255x1020 ![0, 1] bcast_S255x1_S255x1020_0_1 destCol))

/-- The one-hot matrix of the link words: entry (t, l) is the bit "tunnel t's link word is l", as a number. -/
def onehotTerm (a4 : IVec S1020 32) : FVec Ideal S1020x16 .bf16 :=
  uitofp .bf16
    (cmpi .eq (broadcastInDim S1020x16 ![0, 1] bcast_S1020x1_S1020x16_0_1 (broadcastInDim S1020x1 ![0] bcast_S1020_S1020x1_0 a4))
      (broadcastInDim S1020x16 ![0, 1] bcast_S1x16_S1020x16_0_1 (iotaInDim S1x16 32 1)))

/-- The capacities as one row. -/
def capTerm (a3 : FVec Ideal S16 .f32) : FVec Ideal S1x16 .f32 := shapeCast S1x16 a3 shapeCasts_S16_S1x16

/-! ## The composed terms read at an index -/

/-- The row of tunnel numbers at column t is the word of t. -/
theorem tunnelRow_apply (u : Fin 1) (t : Fin 1020) : tunnelRow (ix2 u t) = BitVec.ofNat 32 t.val := by
  unfold tunnelRow
  rw [broadcastInDim_apply _ _ _ (ix2 u t) (ix1 t) (fun a => match a with | ⟨0, _⟩ => rfl)]
  rfl

/-- The column of destination numbers at row d is the word of d. -/
theorem destCol_apply (d : Fin 255) (u : Fin 1) : destCol (ix2 d u) = BitVec.ofNat 32 d.val := by
  unfold destCol
  rw [broadcastInDim_apply _ _ _ (ix2 d u) (ix1 d) (fun a => match a with | ⟨0, _⟩ => rfl)]
  rfl

/-- The row-wise floor division at an index is the floor division of the words there. -/
theorem floorDivRow_apply (x : IVec S1x1020 32) (y : IVec S_ 32) (j : S1x1020.Idx) :
    floorDivRow x y j = floorWord (x j) (y ix0) := by
  have hb (z : IVec S_ 32) : broadcastInDim S1x1020 ![] bcast_S_S1x1020 z j = z ix0 := broadcastInDim_scalar_apply _ z j
  show Scalar.select
      (IntOp.andi (IntOp.cmpi .ne (sgn (x j)) (broadcastInDim S1x1020 ![] bcast_S_S1x1020 (signi y) j))
        (IntOp.cmpi .ne (IntOp.remsi .host (x j) (broadcastInDim S1x1020 ![] bcast_S_S1x1020 y j))
          (broadcastInDim S1x1020 ![] bcast_S_S1x1020 (constantI S_ 32 0#32) j)))
      (IntOp.subi (IntOp.divsi .host (x j) (broadcastInDim S1x1020 ![] bcast_S_S1x1020 y j))
        (broadcastInDim S1x1020 ![] bcast_S_S1x1020 (constantI S_ 32 1#32) j))
      (IntOp.divsi .host (x j) (broadcastInDim S1x1020 ![] bcast_S_S1x1020 y j)) = _
  rw [hb, hb, hb, hb]
  rfl

/-- Entry (d, t) of the repeat matrix is 1 where tunnel t serves destination d, else 0. -/
theorem expandTerm_apply (d : Fin 255) (t : Fin 1020) : expandTerm (ix2 d t) = if Cert.Spec.dst t = d then 1 else 0 := by
  have h1 : (broadcastInDim S255x1020 ![0, 1] bcast_S1x1020_S255x1020_0_1 (floorDivRow tunnelRow (constantI S_ 32 4#32))) (ix2 d t)
      = BitVec.ofNat 32 (t.val / 4) := by
    rw [broadcastInDim_apply _ _ _ (ix2 d t) (ix2 (0 : Fin 1) t) (fun a => match a with | ⟨0, _⟩ => rfl | ⟨1, _⟩ => rfl),
      floorDivRow_apply, tunnelRow_apply]
    exact floorWord_four t
  have h2 : (broadcastInDim S255x1020 ![0, 1] bcast_S255x1_S255x1020_0_1 destCol) (ix2 d t) = BitVec.ofNat 32 d.val := by
    rw [broadcastInDim_apply _ _ _ (ix2 d t) (ix2 d (0 : Fin 1)) (fun a => match a with | ⟨0, _⟩ => rfl | ⟨1, _⟩ => rfl)]
    exact destCol_apply d 0
  show (((IntOp.cmpi .eq
      ((broadcastInDim S255x1020 ![0, 1] bcast_S1x1020_S255x1020_0_1 (floorDivRow tunnelRow (constantI S_ 32 4#32))) (ix2 d t))
      ((broadcastInDim S255x1020 ![0, 1] bcast_S255x1_S255x1020_0_1 destCol) (ix2 d t))).toNat : ℝ) : EReal) = _
  rw [h1, h2, bit_toReal]
  exact if_congr (word_eq_iff t d) rfl rfl

/-- Entry (t, l) of the one-hot matrix is 1 where tunnel t's link word is l, else 0. -/
theorem onehotTerm_apply (a4 : IVec S1020 32) (t : Fin 1020) (l : Fin 16) : onehotTerm a4 (ix2 t l) = Cert.Spec.hot a4 t l := by
  have h1 : (broadcastInDim S1020x16 ![0, 1] bcast_S1020x1_S1020x16_0_1 (broadcastInDim S1020x1 ![0] bcast_S1020_S1020x1_0 a4)) (ix2 t l)
      = a4 (ix1 t) := by
    rw [broadcastInDim_apply _ _ _ (ix2 t l) (ix2 t (0 : Fin 1)) (fun a => match a with | ⟨0, _⟩ => rfl | ⟨1, _⟩ => rfl),
      broadcastInDim_apply _ _ _ (ix2 t (0 : Fin 1)) (ix1 t) (fun a => match a with | ⟨0, _⟩ => rfl)]
  have h2 : (broadcastInDim S1020x16 ![0, 1] bcast_S1x16_S1020x16_0_1 (iotaInDim S1x16 32 1)) (ix2 t l) = BitVec.ofNat 32 l.val := by
    rw [broadcastInDim_apply _ _ _ (ix2 t l) (ix2 (0 : Fin 1) l) (fun a => match a with | ⟨0, _⟩ => rfl | ⟨1, _⟩ => rfl)]
    rfl
  show (((IntOp.cmpi .eq
      ((broadcastInDim S1020x16 ![0, 1] bcast_S1020x1_S1020x16_0_1 (broadcastInDim S1020x1 ![0] bcast_S1020_S1020x1_0 a4)) (ix2 t l))
      ((broadcastInDim S1020x16 ![0, 1] bcast_S1x16_S1020x16_0_1 (iotaInDim S1x16 32 1)) (ix2 t l))).toNat : ℝ) : EReal) = _
  rw [h1, h2, bit_toReal]
  rfl

/-- The row of capacities at column l is the capacity of link l. -/
theorem capTerm_apply (a3 : FVec Ideal S16 .f32) (l : Fin 16) : capTerm a3 (ix2 0 l) = a3 (ix1 l) :=
  shapeCast_a_1a_apply a3 _ 0 l

/-! ## The operands on entry to the region are these terms

Each operand's buffer is written once by the host operations before the region; running those operations in order from
the launch memory and reading the operand's buffer gives the composed term of the operations that feed it. -/

variable (m : (ℓ : Loc nD τ sig) → Buf (Elt Ideal) ℓ) (c : Dev nD)

/-- The repeat matrix's buffer holds the repeat matrix's term (it depends on no argument). -/
theorem V_expand : (Gen.V (F := Ideal) m c main_v8 : S255x1020.Idx → EReal) = expandTerm := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- The one-hot matrix's buffer holds the one-hot term of the launched link words. -/
theorem V_onehot : (Gen.V (F := Ideal) m c main_v9 : S1020x16.Idx → EReal) = onehotTerm (m ((c.tc : Thread nD τ).loc main_arg4)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- The capacity row's buffer holds the launched capacities, reshaped. -/
theorem V_cap : (Gen.V (F := Ideal) m c main_v10 : S1x16.Idx → EReal) = capTerm (m ((c.tc : Thread nD τ).loc main_arg3)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-! ## The three operands, entry by entry -/

/-- On entry, entry (d, t) of the repeat matrix is 1 where tunnel t serves destination d, else 0. -/
theorem expand_apply (d : Fin 255) (t : Fin 1020) :
    (Gen.V (F := Ideal) m c main_v8 : S255x1020.Idx → EReal) (ix2 d t) = (if Cert.Spec.dst t = d then 1 else 0 : EReal) :=
  (congrFun (V_expand m c) (ix2 d t)).trans (expandTerm_apply d t)

/-- On entry, entry (t, l) of the one-hot matrix is 1 where tunnel t leaves on link l, else 0. -/
theorem onehot_apply (t : Fin 1020) (l : Fin 16) :
    (Gen.V (F := Ideal) m c main_v9 : S1020x16.Idx → EReal) (ix2 t l) = Cert.Spec.hot (m ((c.tc : Thread nD τ).loc main_arg4)) t l :=
  (congrFun (V_onehot m c) (ix2 t l)).trans (onehotTerm_apply _ t l)

/-- On entry, the capacity row at column l is the capacity of link l. -/
theorem cap_apply (l : Fin 16) :
    (Gen.V (F := Ideal) m c main_v10 : S1x16.Idx → EReal) (ix2 0 l) = (m ((c.tc : Thread nD τ).loc main_arg3)) (ix1 l) :=
  (congrFun (V_cap m c) (ix2 0 l)).trans (capTerm_apply _ l)

end Cert.KernelIdeal.HostPrefix

end
-- ==== Proof.KernelBlocks.lean ====
/-
  The input blocks of the kernel's grid points, read off the arrays.

  Point n of the sixteen handles tile n: its three row-indexed input blocks are rows n * 1024 … n * 1024 + 1023 of the
  ratios, the demands and the current utilisations; its three grid-invariant blocks are the whole 0/1 repeat matrix,
  the whole 0/1 scatter matrix and the capacities, as the host operations before the kernel left them.
-/
import proofs.«101567_j5549097747152_2_alg».proof.Proof.Gen.KernelIdeal.Frame
import Idealize.ShloMosaic.Lib.Pipeline.Value
import proofs.«101567_j5549097747152_2_alg».proof.Proof.Tile
import proofs.«101567_j5549097747152_2_alg».proof.Proof.HostPrefix
import proofs.«101567_j5549097747152_2_alg».proof.Proof.Spec
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.Spec Idealize.ShloMosaic.ValueIdx

variable (m : (ℓ : Loc nD τ sig) → Buf (Elt Ideal) ℓ) (c : Dev nD)

/-- The five argument arrays as the launch memory holds them. -/
abbrev PR : Mat 16384 1020 := m ((c.tc : Thread nD τ).loc main_arg0)
abbrev DM : Mat 16384 255 := m ((c.tc : Thread nD τ).loc main_arg1)
abbrev CLU : Mat 16384 16 := m ((c.tc : Thread nD τ).loc main_arg2)
abbrev CAP : Vect 16 := m ((c.tc : Thread nD τ).loc main_arg3)
abbrev TL : Words 1020 := m ((c.tc : Thread nD τ).loc main_arg4)

/-- The three per-row numbers of the launch arrays. -/
abbrev fv : Fin 16384 → EReal := rowVar (PR m c) (DM m c) (CAP m c) (TL m c)
abbrev fc : Fin 16384 → EReal := rowCong (PR m c) (DM m c) (CLU m c) (CAP m c) (TL m c)
abbrev ft : Fin 16384 → EReal := rowTop (PR m c) (DM m c) (CAP m c) (TL m c)

theorem hN : cfg0.N = 16 := N_0

/-- Where the blocks sit: the row-indexed windows at block row n, the others at the origin. -/
theorem idx_rows : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0))
theorem idx_fixed : ∀ t : Fin cfg0.N,
    (win0_3.index t 0 = 0 ∧ win0_3.index t 1 = 0) ∧ (win0_4.index t 0 = 0 ∧ win0_4.index t 1 = 0)
    ∧ (win0_5.index t 0 = 0 ∧ win0_5.index t 1 = 0) :=
  (by decide +kernel : ∀ t : Fin grid0.N,
    (win0_3.index t 0 = 0 ∧ win0_3.index t 1 = 0) ∧ (win0_4.index t 0 = 0 ∧ win0_4.index t 1 = 0)
    ∧ (win0_5.index t 0 = 0 ∧ win0_5.index t 1 = 0))

/-- Row r of the ratios block at point t is row t * 1024 + r of the ratios. -/
theorem blk0 (t : Fin cfg0.N) (r : Fin 1024) (q : Fin 1020) :
    (iblk m c 0 t : Vec Ideal S1024x1020 .f32) (ix2 r q) = PR m c (ix2 (tileRow t.val r) q) := by
  have ht : t.val < 16 := lt_of_lt_of_eq t.isLt (hN)
  unfold iblk
  rw [View.read_apply]
  show V m c main_arg0 _ = _
  rw [V_main_arg0]
  refine congrArg (m ((c.tc : Thread nD τ).loc main_arg0)) (funext fun a => Fin.ext ?_)
  match a with
  | ⟨0, _⟩ =>
    show win0_0.index t 0 * 1024 + 1 * r.val = (t.val % 16) * 1024 + r.val
    rw [(idx_rows t).1.1, Nat.mod_eq_of_lt ht]; omega
  | ⟨1, _⟩ =>
    show win0_0.index t 1 * 1020 + 1 * q.val = q.val
    rw [(idx_rows t).1.2]; omega

/-- Row r of the demands block at point t is row t * 1024 + r of the demands. -/
theorem blk1 (t : Fin cfg0.N) (r : Fin 1024) (q : Fin 255) :
    (iblk m c 1 t : Vec Ideal S1024x255 .f32) (ix2 r q) = DM m c (ix2 (tileRow t.val r) q) := by
  have ht : t.val < 16 := lt_of_lt_of_eq t.isLt (hN)
  unfold iblk
  rw [View.read_apply]
  show V m c main_arg1 _ = _
  rw [V_main_arg1]
  refine congrArg (m ((c.tc : Thread nD τ).loc main_arg1)) (funext fun a => Fin.ext ?_)
  match a with
  | ⟨0, _⟩ =>
    show win0_1.index t 0 * 1024 + 1 * r.val = (t.val % 16) * 1024 + r.val
    rw [(idx_rows t).2.1.1, Nat.mod_eq_of_lt ht]; omega
  | ⟨1, _⟩ =>
    show win0_1.index t 1 * 255 + 1 * q.val = q.val
    rw [(idx_rows t).2.1.2]; omega

/-- Row r of the current utilisations block at point t is row t * 1024 + r of the current utilisations. -/
theorem blk2 (t : Fin cfg0.N) (r : Fin 1024) (q : Fin 16) :
    (iblk m c 2 t : Vec Ideal S1024x16 .f32) (ix2 r q) = CLU m c (ix2 (tileRow t.val r) q) := by
  have ht : t.val < 16 := lt_of_lt_of_eq t.isLt (hN)
  unfold iblk
  rw [View.read_apply]
  show V m c main_arg2 _ = _
  rw [V_main_arg2]
  refine congrArg (m ((c.tc : Thread nD τ).loc main_arg2)) (funext fun a => Fin.ext ?_)
  match a with
  | ⟨0, _⟩ =>
    show win0_2.index t 0 * 1024 + 1 * r.val = (t.val % 16) * 1024 + r.val
    rw [(idx_rows t).2.2.1, Nat.mod_eq_of_lt ht]; omega
  | ⟨1, _⟩ =>
    show win0_2.index t 1 * 16 + 1 * q.val = q.val
    rw [(idx_rows t).2.2.2]; omega

/-- The repeat matrix block at every point is the whole repeat matrix. -/
theorem blk3 (t : Fin cfg0.N) (p : Fin 255) (q : Fin 1020) :
    (iblk m c 3 t : Vec Ideal S255x1020 .bf16) (ix2 p q) = (V (F := Ideal) m c main_v8 : S255x1020.Idx → EReal) (ix2 p q) := by
  unfold iblk
  rw [View.read_apply]
  show V m c main_v8 _ = _
  refine congrArg (V (F := Ideal) m c main_v8) (funext fun a => Fin.ext ?_)
  match a with
  | ⟨0, _⟩ =>
    show win0_3.index t 0 * 255 + 1 * p.val = p.val
    rw [(idx_fixed t).1.1]; omega
  | ⟨1, _⟩ =>
    show win0_3.index t 1 * 1020 + 1 * q.val = q.val
    rw [(idx_fixed t).1.2]; omega

/-- The scatter matrix block at every point is the whole scatter matrix. -/
theorem blk4 (t : Fin cfg0.N) (p : Fin 1020) (q : Fin 16) :
    (iblk m c 4 t : Vec Ideal S1020x16 .bf16) (ix2 p q) = (V (F := Ideal) m c main_v9 : S1020x16.Idx → EReal) (ix2 p q) := by
  unfold iblk
  rw [View.read_apply]
  show V m c main_v9 _ = _
  refine congrArg (V (F := Ideal) m c main_v9) (funext fun a => Fin.ext ?_)
  match a with
  | ⟨0, _⟩ =>
    show win0_4.index t 0 * 1020 + 1 * p.val = p.val
    rw [(idx_fixed t).2.1.1]; omega
  | ⟨1, _⟩ =>
    show win0_4.index t 1 * 16 + 1 * q.val = q.val
    rw [(idx_fixed t).2.1.2]; omega

/-- The capacity row block at every point is the whole capacity row. -/
theorem blk5 (t : Fin cfg0.N) (p : Fin 1) (q : Fin 16) :
    (iblk m c 5 t : Vec Ideal S1x16 .f32) (ix2 p q) = (V (F := Ideal) m c main_v10 : S1x16.Idx → EReal) (ix2 p q) := by
  unfold iblk
  rw [View.read_apply]
  show V m c main_v10 _ = _
  refine congrArg (V (F := Ideal) m c main_v10) (funext fun a => Fin.ext ?_)
  match a with
  | ⟨0, _⟩ =>
    show win0_5.index t 0 * 1 + 1 * p.val = p.val
    rw [(idx_fixed t).2.2.1]; omega
  | ⟨1, _⟩ =>
    show win0_5.index t 1 * 16 + 1 * q.val = q.val
    rw [(idx_fixed t).2.2.2]; omega

/-- The six input blocks of point t are tile t of the arrays, the 0/1 repeat and scatter matrices, and the capacities. -/
theorem isTile (t : Fin cfg0.N) :
    Tile.IsTile (PR m c) (DM m c) (CLU m c) (CAP m c) (TL m c) t.val
      (iblk m c 0 t) (iblk m c 1 t) (iblk m c 2 t) (iblk m c 3 t) (iblk m c 4 t) (iblk m c 5 t) where
  hp := blk0 m c t
  hd := blk1 m c t
  hc := blk2 m c t
  he := fun d q => (blk3 m c t d q).trans (HostPrefix.expand_apply m c d q)
  ho := fun q l => (blk4 m c t q l).trans (HostPrefix.onehot_apply m c q l)
  hk := fun l => (blk5 m c t 0 l).trans (HostPrefix.cap_apply m c l)

end Cert.KernelIdeal.Blocks

end
-- ==== Proof.KernelPoints.lean ====
/-
  The kernel's carried totals and output block, point by point, as the specification's running totals.

  After point n the three carried totals are the running totals of core n / 8 over its first n % 8 + 1 tiles
  (by induction on n: reset to zero at n % 8 = 0 before the tile is added, carried from point n - 1 otherwise), and at
  n % 8 = 7 the block written back is the core's combined loss in every element.
-/
import proofs.«101567_j5549097747152_2_alg».proof.Proof.KernelPieces
import proofs.«101567_j5549097747152_2_alg».proof.Proof.KernelBlocks

noncomputable section

open Idealize.ShloMosaic Idealize.ShloMosaic.TcCoe Idealize.SL.Sem
open Idealize.ShloMosaic.Pipeline (Dat)

namespace Cert.KernelIdeal.Points

open Cert.KernelIdeal Cert.KernelIdeal.Gen Cert.Spec Idealize.ShloMosaic.ValueIdx
open Cert.KernelIdeal.Blocks (PR DM CLU CAP TL fv fc ft isTile hN)

/-- A running total one tile on, and at a core's first tile. -/
theorem acc_step (f : Fin 16384 → EReal) (n : ℕ) (h : ¬(n + 1) % 8 = 0) :
    acc f ((n + 1) / 8) ((n + 1) % 8 + 1) = acc f (n / 8) (n % 8 + 1) + tileSum f (n + 1) := by
  have e1 : (n + 1) / 8 = n / 8 := by omega
  have e2 : (n + 1) % 8 = n % 8 + 1 := by omega
  rw [e1, e2]
  show acc f (n / 8) (n % 8 + 1) + tileSum f (n / 8 * 8 + (n % 8 + 1)) = _
  congr 2; omega
theorem acc_first (f : Fin 16384 → EReal) (n : ℕ) (h : n % 8 = 0) :
    acc f (n / 8) (n % 8 + 1) = 0 + tileSum f n := by
  rw [h]
  show acc f (n / 8) 0 + tileSum f (n / 8 * 8 + 0) = _
  show 0 + _ = _
  congr 2; omega

variable (m : (ℓ : Loc nD τ sig) → Buf (Elt Ideal) ℓ) (c : Dev nD)

/-- Adding tile t's rows to a total: the variances, the product-sums, the maxima. -/
theorem add_var (t : Fin cfg0.N) (a : Vec Ideal S1x1 .f32) (x y : EReal) (ha : a = fun _ => x) (hy : x + tileSum (fv m c) t.val = y) :
    k0_pay1 (F := Ideal) (k0_pay9 (iblk m c 1 t) (iblk m c 0 t) (iblk m c 3 t) (iblk m c 4 t) (iblk m c 5 t)) a = fun _ => y := by
  subst ha; subst hy
  funext j
  refine (Tile.accVar_apply _ _ j).trans ?_
  exact congrArg (x + ·) (Finset.sum_congr rfl fun r _ => Tile.var_apply (isTile m c t) r)
theorem add_cong (t : Fin cfg0.N) (a : Vec Ideal S1x1 .f32) (x y : EReal) (ha : a = fun _ => x) (hy : x + tileSum (fc m c) t.val = y) :
    k0_pay2 (F := Ideal) (k0_pay10 (iblk m c 1 t) (iblk m c 0 t) (iblk m c 3 t) (iblk m c 4 t) (iblk m c 2 t) (iblk m c 5 t)) a = fun _ => y := by
  subst ha; subst hy
  funext j
  refine (Tile.accCong_apply _ _ j).trans ?_
  exact congrArg (x + ·) (Finset.sum_congr rfl fun r _ => Tile.cong_apply (isTile m c t) r)
theorem add_top (t : Fin cfg0.N) (a : Vec Ideal S1x1 .f32) (x y : EReal) (ha : a = fun _ => x) (hy : x + tileSum (ft m c) t.val = y) :
    k0_pay3 (F := Ideal) (k0_pay8 (iblk m c 1 t) (iblk m c 0 t) (iblk m c 3 t) (iblk m c 4 t) (iblk m c 5 t)) a = fun _ => y := by
  subst ha; subst hy
  funext j
  refine (Tile.accTop_apply _ _ j).trans ?_
  exact congrArg (x + ·) (Finset.sum_congr rfl fun r _ => congrArg top (funext fun l => Tile.util_apply (isTile m c t) r l))

/-- The variance total after point n. -/
theorem var_total : ∀ (n : ℕ) (hn : n < cfg0.N), (outsAt0 m c n hn).2.1 = fun _ => acc (fv m c) (n / 8) (n % 8 + 1)
  | 0, hn => by
    have h0 : (⟨0, hn⟩ : Fin cfg0.N).val % 8 = 0 := rfl
    have h1 : ¬(⟨0, hn⟩ : Fin cfg0.N).val % 8 = 7 := by show ¬(0 % 8 = 7); decide
    rw [outsAt0_A m c ⟨0, hn⟩ h0 h1]
    dsimp only
    rw [Pieces.first_0]
    exact add_var m c ⟨0, hn⟩ _ 0 _ (funext Tile.zero5) (acc_first _ 0 rfl).symm
  | n + 1, hn => by
    have ih := var_total n (Nat.lt_of_succ_lt hn)
    by_cases h0 : (n + 1) % 8 = 0
    · have h1 : ¬(n + 1) % 8 = 7 := by omega
      rw [outsAt0_A m c ⟨n + 1, hn⟩ h0 h1]
      dsimp only
      rw [Pieces.first_0]
      exact add_var m c ⟨n + 1, hn⟩ _ 0 _ (funext Tile.zero5) (acc_first _ (n + 1) h0).symm
    · by_cases h1 : (n + 1) % 8 = 7
      · rw [outsAt0_C m c ⟨n + 1, hn⟩ h0 h1]
        dsimp only
        rw [Pieces.last_0]
        exact add_var m c ⟨n + 1, hn⟩ _ _ _ ih (acc_step _ n h0).symm
      · rw [outsAt0_B m c ⟨n + 1, hn⟩ h0 h1]
        dsimp only
        rw [Pieces.middle_0]
        exact add_var m c ⟨n + 1, hn⟩ _ _ _ ih (acc_step _ n h0).symm

/-- The product-sum total after point n. -/
theorem cong_total : ∀ (n : ℕ) (hn : n < cfg0.N), (outsAt0 m c n hn).2.2.1 = fun _ => acc (fc m c) (n / 8) (n % 8 + 1)
  | 0, hn => by
    have h0 : (⟨0, hn⟩ : Fin cfg0.N).val % 8 = 0 := rfl
    have h1 : ¬(⟨0, hn⟩ : Fin cfg0.N).val % 8 = 7 := by show ¬(0 % 8 = 7); decide
    rw [outsAt0_A m c ⟨0, hn⟩ h0 h1]
    dsimp only
    rw [Pieces.first_1]
    exact add_cong m c ⟨0, hn⟩ _ 0 _ (funext Tile.zero6) (acc_first _ 0 rfl).symm
  | n + 1, hn => by
    have ih := cong_total n (Nat.lt_of_succ_lt hn)
    by_cases h0 : (n + 1) % 8 = 0
    · have h1 : ¬(n + 1) % 8 = 7 := by omega
      rw [outsAt0_A m c ⟨n + 1, hn⟩ h0 h1]
      dsimp only
      rw [Pieces.first_1]
      exact add_cong m c ⟨n + 1, hn⟩ _ 0 _ (funext Tile.zero6) (acc_first _ (n + 1) h0).symm
    · by_cases h1 : (n + 1) % 8 = 7
      · rw [outsAt0_C m c ⟨n + 1, hn⟩ h0 h1]
        dsimp only
        rw [Pieces.last_1]
        exact add_cong m c ⟨n + 1, hn⟩ _ _ _ ih (acc_step _ n h0).symm
      · rw [outsAt0_B m c ⟨n + 1, hn⟩ h0 h1]
        dsimp only
        rw [Pieces.middle_1]
        exact add_cong m c ⟨n + 1, hn⟩ _ _ _ ih (acc_step _ n h0).symm

/-- The maximum total after point n. -/
theorem top_total : ∀ (n : ℕ) (hn : n < cfg0.N), (outsAt0 m c n hn).2.2.2 = fun _ => acc (ft m c) (n / 8) (n % 8 + 1)
  | 0, hn => by
    have h0 : (⟨0, hn⟩ : Fin cfg0.N).val % 8 = 0 := rfl
    have h1 : ¬(⟨0, hn⟩ : Fin cfg0.N).val % 8 = 7 := by show ¬(0 % 8 = 7); decide
    rw [outsAt0_A m c ⟨0, hn⟩ h0 h1]
    dsimp only
    rw [Pieces.first_2]
    exact add_top m c ⟨0, hn⟩ _ 0 _ (funext Tile.zero7) (acc_first _ 0 rfl).symm
  | n + 1, hn => by
    have ih := top_total n (Nat.lt_of_succ_lt hn)
    by_cases h0 : (n + 1) % 8 = 0
    · have h1 : ¬(n + 1) % 8 = 7 := by omega
      rw [outsAt0_A m c ⟨n + 1, hn⟩ h0 h1]
      dsimp only
      rw [Pieces.first_2]
      exact add_top m c ⟨n + 1, hn⟩ _ 0 _ (funext Tile.zero7) (acc_first _ (n + 1) h0).symm
    · by_cases h1 : (n + 1) % 8 = 7
      · rw [outsAt0_C m c ⟨n + 1, hn⟩ h0 h1]
        dsimp only
        rw [Pieces.last_2]
        exact add_top m c ⟨n + 1, hn⟩ _ _ _ ih (acc_step _ n h0).symm
      · rw [outsAt0_B m c ⟨n + 1, hn⟩ h0 h1]
        dsimp only
        rw [Pieces.middle_2]
        exact add_top m c ⟨n + 1, hn⟩ _ _ _ ih (acc_step _ n h0).symm

/-- At a core's last point the block written back holds the core's combined loss in every element. -/
theorem out_block (n : ℕ) (hn : n < cfg0.N) (h7 : n % 8 = 7) :
    (outsAt0 m c n hn).1 = fun _ => coreLoss (PR m c) (DM m c) (CLU m c) (CAP m c) (TL m c) (n / 8) := by
  have h0 : ¬n % 8 = 0 := by omega
  have hv := var_total m c n hn
  have hc := cong_total m c n hn
  have ht := top_total m c n hn
  rw [outsAt0_C m c ⟨n, hn⟩ h0 h7] at hv hc ht ⊢
  dsimp only at hv hc ht ⊢
  rw [Pieces.last_0] at hv
  rw [Pieces.last_1] at hc
  rw [Pieces.last_2] at ht
  rw [Pieces.last_out, hv, hc, ht]
  funext j
  refine (Tile.out_apply _ _ _ j).trans ?_
  show combine (acc (fv m c) (n / 8) (n % 8 + 1)) (acc (fc m c) (n / 8) (n % 8 + 1)) (acc (ft m c) (n / 8) (n % 8 + 1)) = _
  rw [h7]
  rfl

end Cert.KernelIdeal.Points

end
-- ==== Proof.KernelRun.lean ====
/-
  The kernel's run, read: its result is the two cores' combined losses added.

  Only the points n with n % 8 = 7 write the output block back (points 7 and 15); point 7's block is rows 0 … 7 of the
  16 × 128 output array and point 15's is rows 8 … 15, so after the run every element of block row k holds core k's
  combined loss.  The host operations after the kernel read elements (0, 0) and (8, 0) and add them.
-/
import proofs.«101567_j5549097747152_2_alg».proof.Proof.KernelPoints
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.Spec Idealize.ShloMosaic.ValueIdx
open Cert.KernelIdeal.Blocks (PR DM CLU CAP TL hN)

variable (m : (ℓ : Loc nD τ sig) → Buf (Elt Ideal) ℓ) (ρ : Dev nD → PrngReg)

/-- The output array after the run: block row k holds core k's combined loss in every element. -/
def outArr (c : Dev nD) : Buf (Elt Ideal) ((c : Thread nD τ).loc main_v11) :=
  fun i => coreLoss (PR m c) (DM m c) (CLU m c) (CAP m c) (TL m c) ((i 0).val / 8)

/-- The output block of point n sits at block row n / 8, block column 0. -/
theorem idx_out : ∀ t : Fin cfg0.N, win0_6.index t 0 = t.val / 8 ∧ win0_6.index t 1 = 0 :=
  (by decide +kernel : ∀ t : Fin grid0.N, win0_6.index t 0 = t.val / 8 ∧ win0_6.index t 1 = 0)

/-- What a writing-back point writes is its block of that array. -/
theorem flushed_eq (c : Dev nD) (t : Fin cfg0.N) (hf : (cfg0.win 6).flush t = true) :
    (dats m 0 c).flushed 6 t = ((cfg0.win 6).blk t).view.read (Elt Ideal) (outArr m c) := by
  have h7 : t.val % 8 = 7 := (flush0_6 t).mp hf
  show (cfg0.win 6).cut (grid0.coords t) ((dats m 0 c).after 6 t) = _
  rw [after0_6, Points.out_block m c t.val t.isLt h7]
  funext y
  rw [View.read_apply]
  have hy : (y 0).val < 8 := (y 0).isLt
  have e : ((((cfg0.win 6).blk t).view.emb y) 0).val = win0_6.index t 0 * 8 + 1 * (y 0).val := rfl
  show coreLoss _ _ _ _ _ (t.val / 8) = coreLoss _ _ _ _ _ (((((cfg0.win 6).blk t).view.emb y) 0).val / 8)
  rw [e, (idx_out t).1]
  congr 1
  omega

/-- The two writing-back blocks cover the output array, so after the run it is `outArr`. -/
theorem final (c : Dev nD) : (dats m 0 c).arrAt 6 cfg0.N = outArr m c :=
  (dats m 0 c).arrAt_eq_of_cover 6 (outArr m c) (flushed_eq m c) fun i => by
    have h0 : (i 0 : Nat) < 16 := (i 0).isLt
    have h1 : (i 1 : Nat) < 128 := (i 1).isLt
    by_cases hlt : (i 0 : Nat) < 8
    · refine ⟨t0_7, (flush0_6 t0_7).mpr rfl, ?_⟩
      show i ∈ ((View.whole main_v11).slice (win0_6.rect t0_7)).set
      rw [View.set_slice_whole, Rect.mem_set_unit]
      intro a
      match a with
      | ⟨0, _⟩ =>
        show win0_6.index t0_7 0 * win0_6.size 0 ≤ (i 0 : Nat) ∧ (i 0 : Nat) < win0_6.index t0_7 0 * win0_6.size 0 + win0_6.xsize (grid0.coords t0_7) 0
        rw [show win0_6.index t0_7 0 * win0_6.size 0 = 0 from by decide +kernel, show win0_6.xsize (grid0.coords t0_7) 0 = 8 from by decide +kernel]; omega
      | ⟨1, _⟩ =>
        show win0_6.index t0_7 1 * win0_6.size 1 ≤ (i 1 : Nat) ∧ (i 1 : Nat) < win0_6.index t0_7 1 * win0_6.size 1 + win0_6.xsize (grid0.coords t0_7) 1
        rw [show win0_6.index t0_7 1 * win0_6.size 1 = 0 from by decide +kernel, show win0_6.xsize (grid0.coords t0_7) 1 = 128 from by decide +kernel]; omega
    · refine ⟨t0_15, (flush0_6 t0_15).mpr rfl, ?_⟩
      show i ∈ ((View.whole main_v11).slice (win0_6.rect t0_15)).set
      rw [View.set_slice_whole, Rect.mem_set_unit]
      intro a
      match a with
      | ⟨0, _⟩ =>
        show win0_6.index t0_15 0 * win0_6.size 0 ≤ (i 0 : Nat) ∧ (i 0 : Nat) < win0_6.index t0_15 0 * win0_6.size 0 + win0_6.xsize (grid0.coords t0_15) 0
        rw [show win0_6.index t0_15 0 * win0_6.size 0 = 8 from by decide +kernel, show win0_6.xsize (grid0.coords t0_15) 0 = 8 from by decide +kernel]; omega
      | ⟨1, _⟩ =>
        show win0_6.index t0_15 1 * win0_6.size 1 ≤ (i 1 : Nat) ∧ (i 1 : Nat) < win0_6.index t0_15 1 * win0_6.size 1 + win0_6.xsize (grid0.coords t0_15) 1
        rw [show win0_6.index t0_15 1 * win0_6.size 1 = 0 from by decide +kernel, show win0_6.xsize (grid0.coords t0_15) 1 = 128 from by decide +kernel]; omega

/-- One element (r, 0) of a 16 × 128 array, sliced out as a 1 × 1 block and reshaped to a scalar. -/
theorem pick (A : S16x128.Idx → EReal) (off : Fin 2 → Nat) (r : Fin 16) (hoff : off = ![r.val, 0]) (h : S16x128.Slices off S1x1)
    (h' : S1x1.ShapeCasts S_) (j : S_.Idx) :
    shapeCast S_ (extractStridedSlice S1x1 off A h) h' j = A (ix2 r 0) := by
  subst hoff
  refine (shapeCast_apply _ h' j (ix2 0 0) ?_).trans (extractStridedSlice_apply _ A h (ix2 0 0) (ix2 r 0) ?_)
  · rw [Shape.rowMajor_val_two]
    have hj : (S_.rowMajor j).val < 1 := (S_.rowMajor j).isLt
    show 0 * 1 + 0 = _
    omega
  · intro a
    match a with
    | ⟨0, _⟩ => show r.val = r.val + 0; omega
    | ⟨1, _⟩ => show 0 = 0 + 0; rfl

/-- An element of block row k of the output array is core k's combined loss. -/
theorem outArr_apply (c : Dev nD) (r : Fin 16) (k : ℕ) (hk : r.val / 8 = k) :
    outArr m c (ix2 r 0) = coreLoss (PR m c) (DM m c) (CLU m c) (CAP m c) (TL m c) k := by
  subst hk; rfl

/-- The result buffer after the host operations that follow the kernel: the two cores' losses added. -/
theorem result_eq (c : Dev nD) :
    Pipeline.afterTail₀ cfgs (dats m) 0 (V0 m) [hostOps1] c main_v16
      = fun _ => kernelLoss (PR m c) (DM m c) (CLU m c) (CAP m c) (TL m c) := by
  unfold Pipeline.afterTail₀
  show StableHlo.after hostOps1 _ (Proc.devRef .tc main_v16) = _
  after_results
  have hA : Pipeline.withArrays (cfgs 0).spec c (V0 m c) (fun w => (dats m 0 c).arrAt w (cfgs 0).N) (Proc.tc.devRef main_v11) = outArr m c :=
    (Pipeline.withArrays_arr spec0 launch0.win.arr_inj c _ _ 6).trans (final m c)
  rw [hA]
  generalize hB : outArr m c = A
  funext j
  show (shapeCast S_ (extractStridedSlice S1x1 ![0, 0] A slices_S16x128_S1x1_0_0) shapeCasts_S1x1_S_ j : EReal)
    + (shapeCast S_ (extractStridedSlice S1x1 ![8, 0] A slices_S16x128_S1x1_8_0) shapeCasts_S1x1_S_ j : EReal) = _
  rw [pick A ![0, 0] 0 rfl, pick A ![8, 0] 8 rfl]
  subst hB
  rw [outArr_apply m c 0 0 rfl, outArr_apply m c 8 1 rfl]
  rfl

/-- The kernel's run: every weakly fair execution ends with the result at the two cores' losses added and the arguments unchanged. -/
theorem run : θ_run defs (onTc (τ := τ) (main (F := Ideal))) ⟨m, fun _ => 0, ρ⟩ fun r => ∀ c : Dev nD,
      r.2.mem ((c.tc : Thread nD τ).loc main_v16) = (fun _ => kernelLoss (PR m c) (DM m c) (CLU m c) (CAP m c) (TL m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.lean ====
/-
  The certificate: the kernel, its idealization and the reference compute one loss.

  A batch row's link utilisations are its tunnel traffic (ratio times the demand of the tunnel's destination) scattered
  onto the links and divided by capacity plus epsilon; the loss is 0.3 times the mean over the batch of the rows'
  unbiased variances, plus 0.5 times the mean of their product-sums with the current utilisations, plus 0.2 times the
  mean of their maxima.  The reference takes the means over all 16384 rows.  The kernel gets the repeated demands by
  a product with a 0/1 matrix (x * 0 = 0 and x * 1 = x for every extended real), accumulates the three row sums tile by
  tile on each of two cores, combines each core's totals divided by 16384, and adds the two numbers.  The two agree at
  the exact instance because a nonnegative real factor distributes over any sum of extended reals and the sum over the
  batch is the sum over its sixteen tiles; no finiteness of the inputs is used.

  The frames of the two kernel programs are the generated ones; the reference's frame is its run with the result
  dropped; the ideal pass rewrote nothing, so the idealization claim is trivial.
-/
import proofs.«101567_j5549097747152_2_alg».proof.Defs
import proofs.«101567_j5549097747152_2_alg».proof.Proof.Gen.Kernel
import proofs.«101567_j5549097747152_2_alg».proof.Proof.Gen.Kernel.Skeleton
import proofs.«101567_j5549097747152_2_alg».proof.Proof.Gen.Kernel.Launch
import proofs.«101567_j5549097747152_2_alg».proof.Proof.Gen.Kernel.Points
import proofs.«101567_j5549097747152_2_alg».proof.Proof.Gen.Kernel.Frame
import proofs.«101567_j5549097747152_2_alg».proof.Proof.Gen.KernelIdeal
import proofs.«101567_j5549097747152_2_alg».proof.Proof.Gen.KernelIdeal.Skeleton
import proofs.«101567_j5549097747152_2_alg».proof.Proof.Gen.KernelIdeal.Launch
import proofs.«101567_j5549097747152_2_alg».proof.Proof.Gen.KernelIdeal.Points
import proofs.«101567_j5549097747152_2_alg».proof.Proof.Gen.KernelIdeal.Frame
import proofs.«101567_j5549097747152_2_alg».proof.Proof.Gen.ReferenceIdeal
import proofs.«101567_j5549097747152_2_alg».proof.Proof.Gen.Pre_finite_inputs
import proofs.«101567_j5549097747152_2_alg».proof.Proof.Algebra
import proofs.«101567_j5549097747152_2_alg».proof.Proof.RefRun
import proofs.«101567_j5549097747152_2_alg».proof.Proof.RefRows
import proofs.«101567_j5549097747152_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote nothing. -/
theorem preserves : Cert.preserves_Kernel_KernelIdeal := trivial

/-- At the exact instance the kernel's result is the two cores' combined losses added and the reference's is the
    combined loss over the whole batch, of arguments that agree: one extended real. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2, Cert.ReferenceIdeal.RefRows.out_eq]
  exact funext fun _ => (Cert.Spec.kernelLoss_eq_refLoss _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
